-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg8 : FVec F S128 .f32) (main_arg15 : FVec F S128 .f32) (main_arg22 : FVec F S64 .f32) (main_v118 : IVec S_ 1) (main_cst_46 : FVec F S_ .f32) : IVec S_ 1 :=
  let main_v119 : FVec F S128 .f32 := broadcastInDim S128 ![] bcast_S_S128 main_cst_46
  let main_v120 : IVec S128 1 := cmpf .oge main_arg8 main_v119
  let main_c_47 : IVec S_ 1 := constantI S_ 1 1#1
  let main_v121 : IVec S_ 1 := (fun x v => Host.reduce IntOp.andi x v reducesTo_S128_S_d0 h_S_) main_v120 main_c_47
  let main_v122 : IVec S_ 1 := andi main_v118 main_v121
  let main_cst_48 : FVec F S_ .f32 := constant S_ .f32 0x00000000#32
  let main_v123 : FVec F S128 .f32 := broadcastInDim S128 ![] bcast_S_S128 main_cst_48
  let main_v124 : IVec S128 1 := cmpf .oge main_arg15 main_v123
  let main_c_49 : IVec S_ 1 := constantI S_ 1 1#1
  let main_v125 : IVec S_ 1 := (fun x v => Host.reduce IntOp.andi x v reducesTo_S128_S_d0 h_S_) main_v124 main_c_49
  let main_v126 : IVec S_ 1 := andi main_v122 main_v125
  let main_cst_50 : FVec F S_ .f32 := constant S_ .f32 0x00000000#32
  let main_v127 : FVec F S64 .f32 := broadcastInDim S64 ![] bcast_S_S64 main_cst_50
  let main_v128 : IVec S64 1 := cmpf .oge main_arg22 main_v127
  let main_c_51 : IVec S_ 1 := constantI S_ 1 1#1
  let main_v129 : IVec S_ 1 := (fun x v => Host.reduce IntOp.andi x v reducesTo_S64_S_d0 h_S_) main_v128 main_c_51
  let main_v130 : IVec S_ 1 := andi main_v126 main_v129
  main_v130

def fn_part6 {F : FTy → Type} [FloatOps F] (main_arg8 : FVec F S128 .f32) (main_arg15 : FVec F S128 .f32) (main_arg22 : FVec F S64 .f32) (main_arg23 : FVec F S1x64 .f32) (main_arg24 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S1x64 .f32 := Host.absf main_arg23
  let main_cst_42 : FVec F S_ .f32 := constant S_ .f32 0x7F800000#32
  let main_v110 : FVec F S1x64 .f32 := broadcastInDim S1x64 ![] bcast_S_S1x64 main_cst_42
  let main_v111 : IVec S1x64 1 := cmpf .olt main_v109 main_v110
  let main_c_43 : IVec S_ 1 := constantI S_ 1 1#1
  let main_v112 : IVec S_ 1 := (fun x v => Host.reduce IntOp.andi x v reducesTo_S1x64_S_d0_1 h_S_) main_v111 main_c_43
  let main_v113 : IVec S_ 1 := andi main_v108 main_v112
  let main_v114 : FVec F S1 .f32 := Host.absf main_arg24
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  let main_cst_46 : FVec F S_ .f32 := constant S_ .f32 0x00000000#32
  fn_part7 (F := F) main_arg8 main_arg15 main_arg22 main_v118 main_cst_46

def fn_part5 {F : FTy → Type} [FloatOps F] (main_arg8 : FVec F S128 .f32) (main_arg15 : FVec F S128 .f32) (main_arg19 : FVec F S64 .f32) (main_arg20 : FVec F S64 .f32) (main_arg21 : FVec F S64 .f32) (main_arg22 : FVec F S64 .f32) (main_arg23 : FVec F S1x64 .f32) (main_arg24 : FVec F S1 .f32) (main_v83 : IVec S_ 1) (main_v84 : FVec F S64x128 .f32) (main_cst_32 : FVec F S_ .f32) : IVec S_ 1 :=
  let main_v85 : FVec F S64x128 .f32 := broadcastInDim S64x128 ![] bcast_S_S64x128 main_cst_32
  let main_v86 : IVec S64x128 1 := cmpf .olt main_v84 main_v85
  let main_c_33 : IVec S_ 1 := constantI S_ 1 1#1
  let main_v87 : IVec S_ 1 := (fun x v => Host.reduce IntOp.andi x v reducesTo_S64x128_S_d0_1 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg8 main_arg15 main_arg22 main_arg23 main_arg24 main_v98 main_v101 main_c_39

def fn_part4 {F : FTy → Type} [FloatOps F] (main_arg8 : FVec F S128 .f32) (main_arg15 : FVec F S128 .f32) (main_arg16 : FVec F S64x128 .f32) (main_arg17 : FVec F S64 .f32) (main_arg18 : FVec F S64x128 .f32) (main_arg19 : FVec F S64 .f32) (main_arg20 : FVec F S64 .f32) (main_arg21 : FVec F S64 .f32) (main_arg22 : FVec F S64 .f32) (main_arg23 : FVec F S1x64 .f32) (main_arg24 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S64x128 .f32 := Host.absf main_arg16
  let main_cst_28 : FVec F S_ .f32 := constant S_ .f32 0x7F800000#32
  let main_v75 : FVec F S64x128 .f32 := broadcastInDim S64x128 ![] bcast_S_S64x128 main_cst_28
  let main_v76 : IVec S64x128 1 := cmpf .olt main_v74 main_v75
  let main_c_29 : IVec S_ 1 := constantI S_ 1 1#1
  let main_v77 : IVec S_ 1 := (fun x v => Host.reduce IntOp.andi x v reducesTo_S64x128_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x128 .f32 := Host.absf main_arg18
  let main_cst_32 : FVec F S_ .f32 := constant S_ .f32 0x7F800000#32
  fn_part5 (F := F) main_arg8 main_arg15 main_arg19 main_arg20 main_arg21 main_arg22 main_arg23 main_arg24 main_v83 main_v84 main_cst_32

def fn_part3 {F : FTy → Type} [FloatOps F] (main_arg8 : FVec F S128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_arg19 : FVec F S64 .f32) (main_arg20 : FVec F S64 .f32) (main_arg21 : FVec F S64 .f32) (main_arg22 : FVec F S64 .f32) (main_arg23 : FVec F S1x64 .f32) (main_arg24 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg15 main_arg16 main_arg17 main_arg18 main_arg19 main_arg20 main_arg21 main_arg22 main_arg23 main_arg24 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_arg19 : FVec F S64 .f32) (main_arg20 : FVec F S64 .f32) (main_arg21 : FVec F S64 .f32) (main_arg22 : FVec F S64 .f32) (main_arg23 : FVec F S1x64 .f32) (main_arg24 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg8 main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_arg19 : FVec F S64 .f32) (main_arg20 : FVec F S64 .f32) (main_arg21 : FVec F S64 .f32) (main_arg22 : FVec F S64 .f32) (main_arg23 : FVec F S1x64 .f32) (main_arg24 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S64x128 .f32) (main_arg17 : FVec F S64 .f32) (main_arg18 : FVec F S64x128 .f32) (main_arg19 : FVec F S64 .f32) (main_arg20 : FVec F S64 .f32) (main_arg21 : FVec F S64 .f32) (main_arg22 : FVec F S64 .f32) (main_arg23 : FVec F S1x64 .f32) (main_arg24 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S128x64 : Shape := ⟨2, ![128, 64]⟩
abbrev S64x1 : Shape := ⟨2, ![64, 1]⟩
abbrev S1x1 : Shape := ⟨2, ![1, 1]⟩
abbrev S5000x64 : Shape := ⟨2, ![5000, 64]⟩

abbrev nBuf : Space → Nat
  | .hbm => 107
  | .vmem => 47
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S64x128, .f32⟩
  | .hbm, ⟨17, _⟩ => ⟨S64, .f32⟩
  | .hbm, ⟨18, _⟩ => ⟨S64x128, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S1, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S128x128, .f32⟩
  | .hbm, ⟨56, _⟩ => ⟨S1x128, .f32⟩
  | .hbm, ⟨57, _⟩ => ⟨S128x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S128x128, .f32⟩
  | .hbm, ⟨77, _⟩ => ⟨S1x128, .f32⟩
  | .hbm, ⟨78, _⟩ => ⟨S128x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S128x64, .f32⟩
  | .hbm, ⟨98, _⟩ => ⟨S1x64, .f32⟩
  | .hbm, ⟨99, _⟩ => ⟨S128x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S64x1, .f32⟩
  | .hbm, ⟨105, _⟩ => ⟨S1x1, .f32⟩
  | .hbm, ⟨106, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x1, .f32⟩
  | .local _ .vmem, ⟨35, _⟩ => ⟨S5000x1, .f32⟩
  | .local _ .vmem, ⟨36, _⟩ => ⟨S128x64, .f32⟩
  | .local _ .vmem, ⟨37, _⟩ => ⟨S1x64, .f32⟩
  | .local _ .vmem, ⟨38, _⟩ => ⟨S128x64, .f32⟩
  | .local _ .vmem, ⟨39, _⟩ => ⟨S1x64, .f32⟩
  | .local _ .vmem, ⟨40, _⟩ => ⟨S1x64, .f32⟩
  | .local _ .vmem, ⟨41, _⟩ => ⟨S1x64, .f32⟩
  | .local _ .vmem, ⟨42, _⟩ => ⟨S1x64, .f32⟩
  | .local _ .vmem, ⟨43, _⟩ => ⟨S64x1, .f32⟩
  | .local _ .vmem, ⟨44, _⟩ => ⟨S1x1, .f32⟩
  | .local _ .vmem, ⟨45, _⟩ => ⟨S5000x1, .f32⟩
  | .local _ .vmem, ⟨46, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_5 : Ref sig .tc := ⟨.hbm, 63, rfl⟩
abbrev main_v31 : Ref sig .tc := ⟨.hbm, 64, rfl⟩
abbrev main_v32 : Ref sig .tc := ⟨.hbm, 65, rfl⟩
abbrev main_c_6 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_8 : Ref sig .tc := ⟨.hbm, 84, rfl⟩
abbrev main_v49 : Ref sig .tc := ⟨.hbm, 85, rfl⟩
abbrev main_v50 : Ref sig .tc := ⟨.hbm, 86, rfl⟩
abbrev main_c_9 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_10 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg11_0 : Ref sig .tc := ⟨.vmem, 44, rfl⟩
abbrev cc2_stg12_0 : Ref sig .tc := ⟨.vmem, 45, rfl⟩
abbrev cc2_stg12_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem11_0 : DmaSem sig := 44
abbrev cc2_sem12_0 : DmaSem sig := 45
abbrev cc2_sem12_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S5000x1 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  transposes_S1x64_S64x1_1_0 : S1x64.Transposes [1, 0] S64x1
  shapeCasts_S1_S1x1 : S1.ShapeCasts S1x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64x1.size a ≤ S64x1.size a
  hwx2_10 : ∀ i : grid2.Coords, EltTy.bits .f32 = 32 ∨ (Rect.block (s := S64x1) S64x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x1.size a ≤ S1x1.size a
  hwx2_11 : ∀ i : grid2.Coords, EltTy.bits .f32 = 32 ∨ (Rect.block (s := S1x1) S1x1.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x1.size a ≤ S50000x1.size a
  hwx2_12 : ∀ i : grid2.Coords, EltTy.bits .f32 = 32 ∨ (Rect.block (s := S50000x1) S5000x1.size (cc2_transform_12 i) (hinb2_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v30) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v48) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v63) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v64) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v65) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v66) S64x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v67) S1x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v68) S5000x1.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S64x1 : Shape := ⟨2, ![64, 1]⟩
abbrev S1x1 : Shape := ⟨2, ![1, 1]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S64x128, .f32⟩
  | 17 => ⟨S64, .f32⟩
  | 18 => ⟨S64x128, .f32⟩
  | 19 => ⟨S64, .f32⟩
  | 20 => ⟨S64, .f32⟩
  | 21 => ⟨S64, .f32⟩
  | 22 => ⟨S64, .f32⟩
  | 23 => ⟨S1x64, .f32⟩
  | 24 => ⟨S1, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S128x128, .f32⟩
  | 58 => ⟨S50000x128, .f32⟩
  | 59 => ⟨S1x128, .f32⟩
  | 60 => ⟨S50000x128, .f32⟩
  | 61 => ⟨S50000x128, .f32⟩
  | 62 => ⟨S128x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S128, .f32⟩
  | 73 => ⟨S128, .f32⟩
  | 74 => ⟨S128, .f32⟩
  | 75 => ⟨S128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S50000x128, .f32⟩
  | 96 => ⟨S50000x128, .f32⟩
  | 97 => ⟨S128x128, .f32⟩
  | 98 => ⟨S50000x128, .f32⟩
  | 99 => ⟨S1x128, .f32⟩
  | 100 => ⟨S50000x128, .f32⟩
  | 101 => ⟨S50000x128, .f32⟩
  | 102 => ⟨S128x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S50000x128, .f32⟩
  | 121 => ⟨S50000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000x128, .f32⟩
  | 8 => ⟨S50000x128, .f32⟩
  | 9 => ⟨S128x64, .f32⟩
  | 10 => ⟨S50000x64, .f32⟩
  | 11 => ⟨S1x64, .f32⟩
  | 12 => ⟨S50000x64, .f32⟩
  | 13 => ⟨S50000x64, .f32⟩
  | 14 => ⟨S128x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S_, .f32⟩
  | 21 => ⟨S64, .f32⟩
  | 22 => ⟨S64, .f32⟩
  | 23 => ⟨S64, .f32⟩
  | 24 => ⟨S64, .f32⟩
  | 25 => ⟨S1x64, .f32⟩
  | 26 => ⟨S50000x64, .f32⟩
  | 27 => ⟨S50000x64, .f32⟩
  | 28 => ⟨S1x64, .f32⟩
  | 29 => ⟨S50000x64, .f32⟩
  | 30 => ⟨S50000x64, .f32⟩
  | 31 => ⟨S64x1, .f32⟩
  | 32 => ⟨S50000x1, .f32⟩
  | 33 => ⟨S1x1, .f32⟩
  | 34 => ⟨S50000x1, .f32⟩
  | 35 => ⟨S50000x1, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S_, .f32⟩
  | 42 => ⟨S50000x1, .f32⟩
  | 43 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_cst_2 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_c : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call0_cst : Ref sig .tc := ⟨.hbm, 65, rfl⟩
abbrev main_call0_v0 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_c_6 : Ref sig .tc := ⟨.hbm, 82, rfl⟩
abbrev main_v47 : Ref sig .tc := ⟨.hbm, 83, rfl⟩
abbrev main_v48 : Ref sig .tc := ⟨.hbm, 84, rfl⟩
abbrev main_c_7 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_8 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_call1_cst : Ref sig .tc := ⟨.hbm, 105, rfl⟩
abbrev main_call1_v0 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_9 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_c_10 : Ref sig .tc := ⟨.hbm, 122, rfl⟩
abbrev main_v81 : Ref sig .tc := ⟨.hbm, 123, rfl⟩
abbrev main_v82 : Ref sig .tc := ⟨.hbm, 124, rfl⟩
abbrev main_c_11 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_13 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_14 : Ref sig .tc := ⟨.hbm, 166, rfl⟩
abbrev main_v121 : Ref sig .tc := ⟨.hbm, 167, rfl⟩
abbrev main_v122 : Ref sig .tc := ⟨.hbm, 168, rfl⟩
abbrev main_cst_15 : Ref sig .tc := ⟨.hbm, 169, rfl⟩
abbrev main_v123 : Ref sig .tc := ⟨.hbm, 170, rfl⟩
abbrev main_v124 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The kernel program's run with its RESULT kept in the postcondition.

  The program is three tiled regions among stretches of host operations.  The launch over those six segments ends in a
  state where every buffer that outlives the regions holds the contents the segment-by-segment fold `W6` assigns it;
  the frame claim reads off only the argument buffers there.  Here the same launch is read at the result buffer as
  well: the result ends at `W6` of its reference, the arguments as launched.
-/
import proofs.«127282_j43224550868302_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the fold's contents and the arguments as launched. -/
theorem run_value : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c)⟩)

end Cert.KernelIdeal.Gen

end
-- ==== Proof.PreDecode.lean ====
/-
  The precondition, decoded where the proof uses it: the three running variances are non-negative.

  The precondition is one conjunction (an `and` of `jnp.all`s): each float input finite, and `v ≥ 0` entrywise for the
  variance vector of each of the three batch-norms.  A conjunction of one-bit words is 1 only if each word is; an
  all-reduce by `and` is 1 only if every entry is; and the comparison `v_i ≥ 0` is 1 exactly when `0 ≤ v_i` on the
  extended reals (the zero pattern denotes `0`).
-/
import proofs.«127282_j43224550868302_2_alg».proof.Pre_finite_inputs
import Idealize.ShloMosaic.Lib.ReduceAll
import Idealize.ShloMosaic.Lib.Affine
import Idealize.ShloMosaic.Lib.ValueIdx
import Idealize.ShloMosaic.PureOps.Ideal.Laws

set_option maxRecDepth 16384

noncomputable section

namespace Cert.Pre_finite_inputs.Decode

open Cert.Pre_finite_inputs Idealize.ShloMosaic Idealize.ShloMosaic.ValueIdx

variable [Facts]
open Facts

instance : Subsingleton S_.Idx := ⟨fun a b => funext fun d => d.elim0⟩

/-- The comparison `x ≥ 0.0` is the one-bit word 1 exactly when `0 ≤ x`. -/
theorem nonneg_of_cmp (x : EReal) (h : Ideal.cmp .oge x (Ideal.ofBits .f32 0x00000000#32) = 1#1) : 0 ≤ x := by
  rw [Ideal.ofBits_zero_f32] at h
  unfold Ideal.cmp at h
  by_contra hn
  simp [hn] at h

/-- Under the precondition every entry of the three variance vectors is non-negative. -/
theorem variances_nonneg (a0 : FVec Ideal S50000x128 .f32) (a1 : IVec S2x800000 32) (a2 : FVec Ideal S128x128 .f32) (a3 : FVec Ideal S128 .f32) (a4 : FVec Ideal S128x128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128x128 .f32) (a12 : FVec Ideal S128 .f32) (a13 : FVec Ideal S128 .f32) (a14 : FVec Ideal S128 .f32) (a15 : FVec Ideal S128 .f32) (a16 : FVec Ideal S64x128 .f32) (a17 : FVec Ideal S64 .f32) (a18 : FVec Ideal S64x128 .f32) (a19 : FVec Ideal S64 .f32) (a20 : FVec Ideal S64 .f32) (a21 : FVec Ideal S64 .f32) (a22 : FVec Ideal S64 .f32) (a23 : FVec Ideal S1x64 .f32) (a24 : FVec Ideal S1 .f32)
    (h : fn (F := Ideal) a0 a1 a2 a3 a4 a5 a6 a7 a8 a9 a10 a11 a12 a13 a14 a15 a16 a17 a18 a19 a20 a21 a22 a23 a24 = fun _ => 1#1) :
    (∀ i : S128.Idx, 0 ≤ a8 i) ∧ (∀ i : S128.Idx, 0 ≤ a15 i) ∧ (∀ i : S64.Idx, 0 ≤ a22 i) := by
  have h0 := congrFun h ix0
  unfold fn fn_part1 fn_part2 fn_part3 fn_part4 fn_part5 fn_part6 fn_part7 at h0
  dsimp only at h0
  obtain ⟨h1, e22⟩ := IntOp.andi_eq_one.mp h0
  obtain ⟨h2, e15⟩ := IntOp.andi_eq_one.mp h1
  obtain ⟨-, e8⟩ := IntOp.andi_eq_one.mp h2
  refine ⟨fun i => ?_, fun i => ?_, fun i => ?_⟩
  · exact nonneg_of_cmp _ (Host.reduce_andi_all _ _ _ _ _ e8 i)
  · exact nonneg_of_cmp _ (Host.reduce_andi_all _ _ _ _ _ e15 i)
  · exact nonneg_of_cmp _ (Host.reduce_andi_all _ _ _ _ _ e22 i)

end Cert.Pre_finite_inputs.Decode

end
-- ==== Proof.LibVarianceScale.lean ====
/-
  Batch-norm scale on the extended reals.  For a variance `v ≥ 0` and a positive real `e`, the kernel's
  `g · rsqrt (v + e)` and the reference's `g / sqrt (v + e)` are the same extended real for EVERY `g`
  (finite or not): at a real `v` both are `g · (√(v+e))⁻¹`, and at `v = +∞` both are `0`
  (`rsqrt ⊤ = 0`, `g / ⊤ = g · 0`).  Below `-e` the two differ (`g · ⊥` against `g · ⊥⁻¹ = 0`), which is
  why the hypothesis is needed.
-/
import Idealize.ShloMosaic.PureOps.Ideal

noncomputable section

namespace Cert.VarianceScale

open Idealize.ShloMosaic

/-- `g · rsqrt (v + e) = g / sqrt (v + e)` for `0 ≤ v`, `0 < e`. -/
theorem mul_rsqrt_eq_div_sqrt (g v : EReal) (e : ℝ) (he : 0 < e) (hv : 0 ≤ v) :
    g * Ideal.rsqrt (v + (e : EReal)) = Ideal.div g (Ideal.sqrt (v + (e : EReal))) := by
  induction v using EReal.rec with
  | bot => exact absurd hv (by simp)
  | top =>
    have h : (⊤ : EReal) + (e : EReal) = ⊤ := EReal.top_add_coe e
    rw [h, Ideal.rsqrt_top, Ideal.sqrt_top, mul_zero]
    unfold Ideal.div
    rw [if_neg (by simp), EReal.inv_top, mul_zero]
  | coe r =>
    have hr : 0 ≤ r := by exact_mod_cast hv
    have hy : 0 < r + e := by linarith
    have hs : Real.sqrt (r + e) ≠ 0 := (Real.sqrt_pos.mpr hy).ne'
    rw [← EReal.coe_add, Ideal.rsqrt_coe, Ideal.sqrt_coe, if_neg (not_lt.mpr hy.le), if_neg hy.ne',
      if_neg (not_lt.mpr hy.le), Ideal.div_coe hs, one_div]

/-- The pattern of `1e-5` in f32 denotes a positive real. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

end Cert.VarianceScale

end
-- ==== Proof.RowFormulas.lean ====
/-
  The network, one entry at a time, on the extended reals.

  A SAGE layer at node `r`, feature `q`: the pre-activation is
    conv = Σ_k (s_k · d) · wl_k  +  b  +  Σ_k h_k · wr_k
  (`s` the row of neighbour sums, `d` the inverse degree, `h` the node's own row, `wl`/`wr` the two weight
  columns, `b` the bias), followed by an affine batch-norm `(x − μ) · scale + β`.  The kernel computes the scale as
  `g · rsqrt (v + ε)`, the reference as `g / sqrt (v + ε)`; for a variance `v ≥ 0` they are one extended real
  (LibVarianceScale).  The last layer ends in a dot product with one weight column, a bias and the logistic function.
-/
import Idealize.ShloMosaic.PureOps.Ideal
import Idealize.ShloMosaic.Lib.ValueIdx
import proofs.«127282_j43224550868302_2_alg».proof.Proof.LibVarianceScale

noncomputable section

namespace Cert.Sage

open Idealize.ShloMosaic Idealize.ShloMosaic.ValueIdx

/-- Row and column of a rank-2 index, as numbers of literal range. -/
abbrev row {a b : Nat} (i : (⟨2, ![a, b]⟩ : Shape).Idx) : Fin a := ⟨(i 0).val, idx2_lt0 i⟩
abbrev col {a b : Nat} (i : (⟨2, ![a, b]⟩ : Shape).Idx) : Fin b := ⟨(i 1).val, idx2_lt1 i⟩

/-- The pre-activation of one entry: both linear maps and the bias. -/
def conv (s h : Fin 128 → EReal) (d : EReal) (wl wr : Fin 128 → EReal) (b : EReal) : EReal :=
  (∑ k : Fin 128, (s k * d) * wl k) + b + ∑ k : Fin 128, h k * wr k

/-- Batch-norm with the scale as a product with the reciprocal square root (the kernel's form). -/
def bnK (x g be mu v : EReal) : EReal :=
  (x - mu) * (g * Ideal.rsqrt (v + Ideal.ofBits .f32 0x3727C5AC#32)) + be

/-- Batch-norm with the scale as a quotient by the square root (the reference's form). -/
def bnR (x g be mu v : EReal) : EReal :=
  (x - mu) * (Ideal.div g (Ideal.sqrt (v + Ideal.ofBits .f32 0x3727C5AC#32))) + be

/-- For a non-negative variance the two forms agree, whatever the other operands. -/
theorem bnK_eq_bnR (x g be mu v : EReal) (hv : 0 ≤ v) : bnK x g be mu v = bnR x g be mu v := by
  obtain ⟨e, he, hE⟩ := Cert.VarianceScale.eps_pos
  unfold bnK bnR
  rw [hE, Cert.VarianceScale.mul_rsqrt_eq_div_sqrt g v e he hv]

/-- The pattern of `1.0` denotes `1`. -/
theorem ofBits_one : Ideal.ofBits .f32 0x3F800000#32 = 1 := by
  simp [Ideal.ofBits, Ideal.ieee, -EReal.coe_mul]; norm_num

/-- The output head: a dot product with one weight column, a bias, the logistic function. -/
def head (y w : Fin 64 → EReal) (b : EReal) : EReal := Ideal.logistic ((∑ j : Fin 64, y j * w j) + b)

/-- The reference spells the logistic function out as `1 / (1 + exp (−x))` with the literal `1.0`. -/
theorem logistic_spelled (x : EReal) :
    Ideal.div (Ideal.ofBits .f32 0x3F800000#32) (Ideal.ofBits .f32 0x3F800000#32 + Ideal.exp (-x)) = Ideal.logistic x := by
  rw [ofBits_one]; rfl

end Cert.Sage

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibColumnBroadcast.lean ====
/-
  A column broadcast across a row axis, read at an index given by coordinates.

  The library reads a broadcast at an index `j` as the operand at `j`'s trailing coordinates with `0` on the
  operand's unit axes, and has the case of ONE ROW `[1, b] → [a, b]` by coordinates. This is the companion case of ONE
  COLUMN `[a, 1] → [a, b]` (a per-row quantity kept with a trailing unit axis and spread along the row): entry
  `(p, c)` of the result is the column's entry in row `p`, whatever `c` is.
-/
import Idealize.ShloMosaic.Lib.ValueLayout

namespace Cert.Layout

open Idealize.ShloMosaic Idealize.ShloMosaic.ValueIdx

variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.Layer2.lean ====
/-
  Region 2 (the last SAGE layer and the output head, over 10 row tiles of 5000 nodes), read as ONE function of the arrays it finds.

  Tile `t` holds rows `5000·t … 5000·t+4999` of the neighbour sums, the node features and the inverse degrees; the two
  weight matrices, the five per-feature rows, the head's weight column and its bias are whole at every tile.  Entry `p` of
  the tile's result column depends only on row `p` of the three row-blocks: it is the logistic function of the head's
  dot product with the 64 batch-normed (product form) pre-activations of node `p`, plus the head's bias.  The ten tiles
  cover all 50000 rows, so the result column ends as that function of the whole arrays everywhere.
-/
import proofs.«127282_j43224550868302_2_alg».proof.Proof.Gen.KernelIdeal.Frame
import proofs.«127282_j43224550868302_2_alg».proof.Proof.RowFormulas
import proofs.«127282_j43224550868302_2_alg».proof.Proof.LibPlainMatmul
import proofs.«127282_j43224550868302_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-- Entry `r` of the result column, from the whole arrays. -/
def layer (S h : S50000x128.Idx → EReal) (d : S50000x1.Idx → EReal) (wl wr : S128x64.Idx → EReal)
    (bl g be mu v : S1x64.Idx → EReal) (fw : S64x1.Idx → EReal) (fb : S1x1.Idx → EReal) : S50000x1.Idx → EReal := fun i =>
  head (fun j => bnK (conv (fun k => S (ix2 (row i) k)) (fun k => h (ix2 (row i) k)) (d (ix2 (row i) (0 : Fin 1)))
        (fun k => wl (ix2 k j)) (fun k => wr (ix2 k j)) (bl (ix2 (0 : Fin 1) j)))
      (g (ix2 (0 : Fin 1) j)) (be (ix2 (0 : Fin 1) j)) (mu (ix2 (0 : Fin 1) j)) (v (ix2 (0 : Fin 1) j)))
    (fun j => fw (ix2 j (0 : Fin 1))) (fb (ix2 (0 : Fin 1) (0 : Fin 1)))

/-- The tile body's arithmetic at entry `p` of the tile's result column: it reads row `p` of the three row-blocks only. -/
theorem pay_apply (x0 x1 : Vec Ideal S5000x128 .f32) (x2 : Vec Ideal S5000x1 .f32) (x3 : Vec Ideal S128x64 .f32)
    (x4 : Vec Ideal S1x64 .f32) (x5 : Vec Ideal S128x64 .f32) (x6 x7 x8 x9 : Vec Ideal S1x64 .f32)
    (x10 : Vec Ideal S64x1 .f32) (x11 : Vec Ideal S1x1 .f32) (p : Fin 5000) :
    k2_pay1 (k2_pay2 x2 x0 x1 x3 x5 x4) (k2_pay3 x7) (k2_pay4 x8) (k2_pay5 x6 x9) x10 x11 (ix2 p (0 : Fin 1))
      = head (fun j => bnK (conv (fun k => x0 (ix2 p k)) (fun k => x1 (ix2 p k)) (x2 (ix2 p (0 : Fin 1)))
            (fun k => x3 (ix2 k j)) (fun k => x5 (ix2 k j)) (x4 (ix2 (0 : Fin 1) j)))
          (x6 (ix2 (0 : Fin 1) j)) (x7 (ix2 (0 : Fin 1) j)) (x8 (ix2 (0 : Fin 1) j)) (x9 (ix2 (0 : Fin 1) j)))
        (fun j => x10 (ix2 j (0 : Fin 1))) (x11 (ix2 (0 : Fin 1) (0 : Fin 1))) := by
  unfold k2_pay1 k2_pay2 k2_pay3 k2_pay4 k2_pay5
  dsimp only
  simp only [shapeCast_self]
  show FloatOps.logistic (F := Ideal) (φ := .f32) (addf _ _ (ix2 p (0 : Fin 1))) = _
  simp only [addf_apply, mulf_apply, subf_apply, truncf_apply,
    broadcastTo_1b_ab_apply, Cert.Layout.broadcastTo_a1_ab_apply,
    Cert.LibPlainMatmul.matmul_zero_apply dot_S5000x64_S64x1_S5000x1_1_0_0_1_n_n rfl rfl rfl rfl rfl rfl,
    Cert.LibPlainMatmul.matmul_zero_apply dot_S5000x128_S128x64_S5000x64_1_0_0_1_n_n rfl rfl rfl rfl rfl rfl]
  rfl

theorem hz : (![0, 0] : Fin 2 → Nat) = fun _ => 0 := funext fun a => by fin_cases a <;> rfl

/-- The printed index maps over the grid: the three row-blocked windows and the output move with the tile number
    along the rows; every other coordinate of every window is block 0. -/
theorem idx_facts : ∀ t : Fin cfg2.N,
    win2_0.index t (0 : Fin 2) = win2_12.index t (0 : Fin 2) ∧ win2_0.index t (1 : Fin 2) = 0
    ∧ win2_1.index t (0 : Fin 2) = win2_12.index t (0 : Fin 2) ∧ win2_1.index t (1 : Fin 2) = 0
    ∧ win2_2.index t (0 : Fin 2) = win2_12.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (1 : Fin 2) = 0 ∧ win2_12.index t (0 : Fin 2) ≤ 9 :=
  (by decide +kernel : ∀ t : Fin grid2.N, _)

/-- Every row tile is some grid point's. -/
theorem idx_onto : ∀ q0 : Fin 10, ∃ t : Fin cfg2.N, win2_12.index t = ![q0.val, 0] :=
  (by decide +kernel : ∀ q0 : Fin 10, ∃ t : Fin grid2.N, win2_12.index t = ![q0.val, 0])

variable (V : (c : Dev nD) → (b : Ref sig .tc) → Buf (Elt Ideal) ((c : Thread nD τ).loc b))

set_option maxHeartbeats 4000000 in
/-- WHAT TILE `t` WRITES BACK is tile `t` of `layer` of the arrays as the region finds them. -/
theorem flushed_eq (c : Dev nD) (t : Fin cfg2.N) :
    (dat2 V c).flushed 12 t = ((cfg2.win 12).blk t).view.read (Elt Ideal)
      (layer (V c main_v58) (V c main_v48) (V c main_v12) (V c main_v59) (V c main_v61) (V c main_v60) (V c main_v62) (V c main_v63) (V c main_v64) (V c main_v65) (V c main_v66) (V c main_v67)) := by
  show (cfg2.win 12).cut (grid2.coords t) ((dat2 V c).after 12 t) = _
  rw [after2_12]
  unfold out2_12
  rw [View.canon_unit_zero hz]
  simp only [View.ld_unit_zero (S := S5000x128) hz, View.ld_unit_zero (S := S5000x1) hz,
    View.ld_unit_zero (S := S128x64) hz, View.ld_unit_zero (S := S1x64) hz, View.ld_unit_zero (S := S64x1) hz, View.ld_unit_zero (S := S1x1) hz]
  obtain ⟨e0, e0', e1, e1', e2, e2', e3, e3', e4, e4', e5, e5', e6, e6', e7, e7', e8, e8', e9, e9', e10, e10', e11, e11', eo', eo⟩ := idx_facts t
  funext j
  obtain ⟨p, u, rfl⟩ : ∃ (p : Fin 5000) (u : Fin 1), j = ix2 p u := ⟨j 0, j 1, eq_ix2 j⟩
  obtain rfl : u = 0 := Subsingleton.elim _ _
  refine (pay_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) p).trans ?_
  show _ = layer _ _ _ _ _ _ _ _ _ _ _ _ (((cfg2.win 12).blk t).view.emb (ix2 p (0 : Fin 1)))
  have rS : ∀ k : Fin 128, ((cfg2.win 0).blk t).view.emb (ix2 p k) = ix2 (row (((cfg2.win 12).blk t).view.emb (ix2 p (0 : Fin 1)))) k := fun k => by
    funext a; apply Fin.ext
    match a with
    | ⟨0, _⟩ => show win2_0.index t (0 : Fin 2) * 5000 + 1 * p.val = win2_12.index t (0 : Fin 2) * 5000 + 1 * p.val; omega
    | ⟨1, _⟩ => show win2_0.index t (1 : Fin 2) * 128 + 1 * k.val = k.val; omega
  have rH : ∀ k : Fin 128, ((cfg2.win 1).blk t).view.emb (ix2 p k) = ix2 (row (((cfg2.win 12).blk t).view.emb (ix2 p (0 : Fin 1)))) k := fun k => by
    funext a; apply Fin.ext
    match a with
    | ⟨0, _⟩ => show win2_1.index t (0 : Fin 2) * 5000 + 1 * p.val = win2_12.index t (0 : Fin 2) * 5000 + 1 * p.val; omega
    | ⟨1, _⟩ => show win2_1.index t (1 : Fin 2) * 128 + 1 * k.val = k.val; omega
  have rD : ((cfg2.win 2).blk t).view.emb (ix2 p (0 : Fin 1)) = ix2 (row (((cfg2.win 12).blk t).view.emb (ix2 p (0 : Fin 1)))) (0 : Fin 1) := by
    funext a; apply Fin.ext
    match a with
    | ⟨0, _⟩ => show win2_2.index t (0 : Fin 2) * 5000 + 1 * p.val = win2_12.index t (0 : Fin 2) * 5000 + 1 * p.val; omega
    | ⟨1, _⟩ => show win2_2.index t (1 : Fin 2) * 1 + 1 * 0 = 0; omega
  have rWl : ∀ (k : Fin 128) (j : Fin 64), ((cfg2.win 3).blk t).view.emb (ix2 k j) = ix2 k j := fun k j => by
    funext a; apply Fin.ext
    match a with
    | ⟨0, _⟩ => show win2_3.index t (0 : Fin 2) * 128 + 1 * k.val = k.val; omega
    | ⟨1, _⟩ => show win2_3.index t (1 : Fin 2) * 64 + 1 * j.val = j.val; omega
  have rWr : ∀ (k : Fin 128) (j : Fin 64), ((cfg2.win 5).blk t).view.emb (ix2 k j) = ix2 k j := fun k j => by
    funext a; apply Fin.ext
    match a with
    | ⟨0, _⟩ => show win2_5.index t (0 : Fin 2) * 128 + 1 * k.val = k.val; omega
    | ⟨1, _⟩ => show win2_5.index t (1 : Fin 2) * 64 + 1 * j.val = j.val; omega
  have r4 : ∀ j : Fin 64, ((cfg2.win 4).blk t).view.emb (ix2 (0 : Fin 1) j) = ix2 (0 : Fin 1) j := fun j => by
    funext a; apply Fin.ext
    match a with
    | ⟨0, _⟩ => show win2_4.index t (0 : Fin 2) * 1 + 1 * 0 = 0; omega
    | ⟨1, _⟩ => show win2_4.index t (1 : Fin 2) * 64 + 1 * j.val = j.val; omega
  have r6 : ∀ j : Fin 64, ((cfg2.win 6).blk t).view.emb (ix2 (0 : Fin 1) j) = ix2 (0 : Fin 1) j := fun j => by
    funext a; apply Fin.ext
    match a with
    | ⟨0, _⟩ => show win2_6.index t (0 : Fin 2) * 1 + 1 * 0 = 0; omega
    | ⟨1, _⟩ => show win2_6.index t (1 : Fin 2) * 64 + 1 * j.val = j.val; omega
  have r7 : ∀ j : Fin 64, ((cfg2.win 7).blk t).view.emb (ix2 (0 : Fin 1) j) = ix2 (0 : Fin 1) j := fun j => by
    funext a; apply Fin.ext
    match a with
    | ⟨0, _⟩ => show win2_7.index t (0 : Fin 2) * 1 + 1 * 0 = 0; omega
    | ⟨1, _⟩ => show win2_7.index t (1 : Fin 2) * 64 + 1 * j.val = j.val; omega
  have r8 : ∀ j : Fin 64, ((cfg2.win 8).blk t).view.emb (ix2 (0 : Fin 1) j) = ix2 (0 : Fin 1) j := fun j => by
    funext a; apply Fin.ext
    match a with
    | ⟨0, _⟩ => show win2_8.index t (0 : Fin 2) * 1 + 1 * 0 = 0; omega
    | ⟨1, _⟩ => show win2_8.index t (1 : Fin 2) * 64 + 1 * j.val = j.val; omega
  have r9 : ∀ j : Fin 64, ((cfg2.win 9).blk t).view.emb (ix2 (0 : Fin 1) j) = ix2 (0 : Fin 1) j := fun j => by
    funext a; apply Fin.ext
    match a with
    | ⟨0, _⟩ => show win2_9.index t (0 : Fin 2) * 1 + 1 * 0 = 0; omega
    | ⟨1, _⟩ => show win2_9.index t (1 : Fin 2) * 64 + 1 * j.val = j.val; omega
  have r10 : ∀ j : Fin 64, ((cfg2.win 10).blk t).view.emb (ix2 j (0 : Fin 1)) = ix2 j (0 : Fin 1) := fun j => by
    funext a; apply Fin.ext
    match a with
    | ⟨0, _⟩ => show win2_10.index t (0 : Fin 2) * 64 + 1 * j.val = j.val; omega
    | ⟨1, _⟩ => show win2_10.index t (1 : Fin 2) * 1 + 1 * 0 = 0; omega
  have r11 : ((cfg2.win 11).blk t).view.emb (ix2 (0 : Fin 1) (0 : Fin 1)) = ix2 (0 : Fin 1) (0 : Fin 1) := by
    funext a; apply Fin.ext
    match a with
    | ⟨0, _⟩ => show win2_11.index t (0 : Fin 2) * 1 + 1 * 0 = 0; omega
    | ⟨1, _⟩ => show win2_11.index t (1 : Fin 2) * 1 + 1 * 0 = 0; omega
  unfold layer
  show head (fun j => bnK (conv (fun k => V c main_v58 (((cfg2.win 0).blk t).view.emb (ix2 p k)))
        (fun k => V c main_v48 (((cfg2.win 1).blk t).view.emb (ix2 p k)))
        (V c main_v12 (((cfg2.win 2).blk t).view.emb (ix2 p (0 : Fin 1))))
        (fun k => V c main_v59 (((cfg2.win 3).blk t).view.emb (ix2 k j)))
        (fun k => V c main_v61 (((cfg2.win 5).blk t).view.emb (ix2 k j)))
        (V c main_v60 (((cfg2.win 4).blk t).view.emb (ix2 (0 : Fin 1) j))))
      (V c main_v62 (((cfg2.win 6).blk t).view.emb (ix2 (0 : Fin 1) j)))
      (V c main_v63 (((cfg2.win 7).blk t).view.emb (ix2 (0 : Fin 1) j)))
      (V c main_v64 (((cfg2.win 8).blk t).view.emb (ix2 (0 : Fin 1) j)))
      (V c main_v65 (((cfg2.win 9).blk t).view.emb (ix2 (0 : Fin 1) j))))
    (fun j => V c main_v66 (((cfg2.win 10).blk t).view.emb (ix2 j (0 : Fin 1))))
    (V c main_v67 (((cfg2.win 11).blk t).view.emb (ix2 (0 : Fin 1) (0 : Fin 1)))) = _
  have hS : (fun k : Fin 128 => V c main_v58 (((cfg2.win 0).blk t).view.emb (ix2 p k)))
      = fun k => V c main_v58 (ix2 (row (((cfg2.win 12).blk t).view.emb (ix2 p (0 : Fin 1)))) k) := funext fun k => congrArg _ (rS k)
  have hH : (fun k : Fin 128 => V c main_v48 (((cfg2.win 1).blk t).view.emb (ix2 p k)))
      = fun k => V c main_v48 (ix2 (row (((cfg2.win 12).blk t).view.emb (ix2 p (0 : Fin 1)))) k) := funext fun k => congrArg _ (rH k)
  have hF : (fun j : Fin 64 => V c main_v66 (((cfg2.win 10).blk t).view.emb (ix2 j (0 : Fin 1)))) = fun j => V c main_v66 (ix2 j (0 : Fin 1)) :=
    funext fun j => congrArg _ (r10 j)
  rw [hS, hH, hF, rD, r11]
  refine congrArg (fun f => head f _ _) (funext fun j => ?_)
  have hWl : (fun k : Fin 128 => V c main_v59 (((cfg2.win 3).blk t).view.emb (ix2 k j))) = fun k => V c main_v59 (ix2 k j) :=
    funext fun k => congrArg _ (rWl k j)
  have hWr : (fun k : Fin 128 => V c main_v61 (((cfg2.win 5).blk t).view.emb (ix2 k j))) = fun k => V c main_v61 (ix2 k j) :=
    funext fun k => congrArg _ (rWr k j)
  rw [hWl, hWr, r4 j, r6 j, r7 j, r8 j, r9 j]

/-- An index of the array is in tile `t`'s block iff each coordinate is in the block's range on its axis. -/
theorem mem_blk (t : Fin cfg2.N) (i : S50000x1.Idx) :
    i ∈ ((cfg2.win 12).blk t).view.set ↔ ∀ a : Fin 2, win2_12.index t a * S5000x1.size a ≤ (i a).val ∧ (i a).val < win2_12.index t a * S5000x1.size a + S5000x1.size a := by
  show i ∈ ((View.whole main_v68).slice (win2_12.rect t)).set ↔ _
  rw [View.set_slice_whole, Rect.mem_set_unit]
  exact Iff.rfl

/-- The ten tiles cover every row. -/
theorem cover (i : S50000x1.Idx) : ∃ t : Fin cfg2.N, (cfg2.win 12).flush t = true ∧ i ∈ ((cfg2.win 12).blk t).view.set := by
  have hi0 : (i 0).val < 50000 := (i 0).isLt
  have hi1 : (i 1).val < 1 := (i 1).isLt
  obtain ⟨t, ht⟩ := idx_onto ⟨(i 0).val / 5000, by omega⟩
  have q0 : win2_12.index t (0 : Fin 2) = (i 0).val / 5000 := congrFun ht 0
  have q1 : win2_12.index t (1 : Fin 2) = 0 := congrFun ht 1
  refine ⟨t, flush2_12 t, ?_⟩
  rw [mem_blk]
  intro a
  match a with
  | ⟨0, _⟩ => show win2_12.index t (0 : Fin 2) * 5000 ≤ (i 0).val ∧ (i 0).val < win2_12.index t (0 : Fin 2) * 5000 + 5000; omega
  | ⟨1, _⟩ => show win2_12.index t (1 : Fin 2) * 1 ≤ (i 1).val ∧ (i 1).val < win2_12.index t (1 : Fin 2) * 1 + 1; omega

/-- THE RESULT ARRAY after the region: `layer` of the arrays the region found. -/
theorem final (c : Dev nD) : (dat2 V c).arrAt 12 cfg2.N
    = layer (V c main_v58) (V c main_v48) (V c main_v12) (V c main_v59) (V c main_v61) (V c main_v60) (V c main_v62) (V c main_v63) (V c main_v64) (V c main_v65) (V c main_v66) (V c main_v67) :=
  (dat2 V c).arrAt_eq_of_cover 12 _ (fun t _ => flushed_eq V c t) cover

end Cert.KernelIdeal.Layer2

end
-- ==== Proof.Entries0.lean ====
/-
  What the first region finds in its ten input arrays, from the launch memory.

  Before the first region the host computes the in-degree reciprocal, gathers the source rows of every edge and
  adds them into their destination rows, transposes the two weight matrices and recasts the five per-feature vectors
  as one-row matrices.  The reference performs the same operations on the same arguments, so the neighbour sums, the
  inverse degrees and the two transposed weights are named by the reference's own stages.
-/
import proofs.«127282_j43224550868302_2_alg».proof.Proof.Gen.KernelIdeal.Frame
import proofs.«127282_j43224550868302_2_alg».proof.Proof.Gen.ReferenceIdeal.Read
import Idealize.ShloMosaic.Lib.StableHlo.Run

set_option maxRecDepth 16384

noncomputable section

namespace Cert.KernelIdeal.Entries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem e0_S (c : Dev nD) : V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  after_results_simp
  rfl

theorem e0_h (c : Dev nD) : V1 m ρ c main_arg0 = (m ((c : Thread nD τ).loc main_arg0)) := by
  show StableHlo.after hostOps0 (W0 m ρ c) (Proc.devRef .tc main_arg0) = _
  after_results_simp

theorem e0_d (c : Dev nD) : V1 m ρ c main_v12 = Cert.ReferenceIdeal.Read.val_main_v12 (F := Ideal) (m ((c : Thread nD τ).loc main_arg1)) := by
  show StableHlo.after hostOps0 (W0 m ρ c) (Proc.devRef .tc main_v12) = _
  after_results_simp
  rfl

theorem e0_wl (c : Dev nD) : V1 m ρ c main_v23 = Cert.ReferenceIdeal.Read.val_main_v25 (F := Ideal) (m ((c : Thread nD τ).loc main_arg2)) := by
  show StableHlo.after hostOps0 (W0 m ρ c) (Proc.devRef .tc main_v23) = _
  after_results_simp
  rfl

theorem e0_wr (c : Dev nD) : V1 m ρ c main_v25 = Cert.ReferenceIdeal.Read.val_main_v30 (F := Ideal) (m ((c : Thread nD τ).loc main_arg4)) := by
  show StableHlo.after hostOps0 (W0 m ρ c) (Proc.devRef .tc main_v25) = _
  after_results_simp
  rfl

theorem e0_bl (c : Dev nD) : V1 m ρ c main_v24 = shapeCast S1x128 (m ((c : Thread nD τ).loc main_arg3)) shapeCasts_S128_S1x128 := by
  show StableHlo.after hostOps0 (W0 m ρ c) (Proc.devRef .tc main_v24) = _
  after_results_simp
  rfl

theorem e0_g (c : Dev nD) : V1 m ρ c main_v26 = shapeCast S1x128 (m ((c : Thread nD τ).loc main_arg5)) shapeCasts_S128_S1x128 := by
  show StableHlo.after hostOps0 (W0 m ρ c) (Proc.devRef .tc main_v26) = _
  after_results_simp
  rfl

theorem e0_be (c : Dev nD) : V1 m ρ c main_v27 = shapeCast S1x128 (m ((c : Thread nD τ).loc main_arg6)) shapeCasts_S128_S1x128 := by
  show StableHlo.after hostOps0 (W0 m ρ c) (Proc.devRef .tc main_v27) = _
  after_results_simp
  rfl

theorem e0_mu (c : Dev nD) : V1 m ρ c main_v28 = shapeCast S1x128 (m ((c : Thread nD τ).loc main_arg7)) shapeCasts_S128_S1x128 := by
  show StableHlo.after hostOps0 (W0 m ρ c) (Proc.devRef .tc main_v28) = _
  after_results_simp
  rfl

theorem e0_v (c : Dev nD) : V1 m ρ c main_v29 = shapeCast S1x128 (m ((c : Thread nD τ).loc main_arg8)) shapeCasts_S128_S1x128 := by
  show StableHlo.after hostOps0 (W0 m ρ c) (Proc.devRef .tc main_v29) = _
  after_results_simp
  rfl

end Cert.KernelIdeal.Entries

end
-- ==== Proof.Entries1.lean ====
/-
  What the second region finds in its ten input arrays.

  The second stretch of host operations gathers and adds the FIRST region's result along the edges, transposes the second
  layer's weights and recasts its per-feature vectors; the edge lists and the inverse degrees are those computed before
  the first region, which neither the first region nor this stretch overwrites.
-/
import proofs.«127282_j43224550868302_2_alg».proof.Proof.Gen.KernelIdeal.Frame
import proofs.«127282_j43224550868302_2_alg».proof.Proof.Gen.ReferenceIdeal.Read
import proofs.«127282_j43224550868302_2_alg».proof.Proof.Entries0
import Idealize.ShloMosaic.Lib.StableHlo.Run

set_option maxRecDepth 16384

noncomputable section

namespace Cert.KernelIdeal.Entries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region's result array. -/
abbrev H1 (c : Dev nD) := (dat0 (V1 m ρ) c).arrAt 10 cfg0.N

theorem w2_src (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp
  rfl

theorem w2_dst (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp
  rfl

theorem w2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results_simp

theorem w2_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results_simp

theorem w2_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results_simp

theorem w2_arg12 (c : Dev nD) : W2 m ρ c (Proc.devRef .tc main_arg12) = (m ((c : Thread nD τ).loc main_arg12)) := by
  rw [W2_of_ne m ρ c main_arg12 (by decide)]
  show StableHlo.after hostOps0 (W0 m ρ c) (Proc.devRef .tc main_arg12) = _
  after_results_simp

theorem w2_arg13 (c : Dev nD) : W2 m ρ c (Proc.devRef .tc main_arg13) = (m ((c : Thread nD τ).loc main_arg13)) := by
  rw [W2_of_ne m ρ c main_arg13 (by decide)]
  show StableHlo.after hostOps0 (W0 m ρ c) (Proc.devRef .tc main_arg13) = _
  after_results_simp

theorem w2_arg14 (c : Dev nD) : W2 m ρ c (Proc.devRef .tc main_arg14) = (m ((c : Thread nD τ).loc main_arg14)) := by
  rw [W2_of_ne m ρ c main_arg14 (by decide)]
  show StableHlo.after hostOps0 (W0 m ρ c) (Proc.devRef .tc main_arg14) = _
  after_results_simp

theorem w2_arg15 (c : Dev nD) : W2 m ρ c (Proc.devRef .tc main_arg15) = (m ((c : Thread nD τ).loc main_arg15)) := by
  rw [W2_of_ne m ρ c main_arg15 (by decide)]
  show StableHlo.after hostOps0 (W0 m ρ c) (Proc.devRef .tc main_arg15) = _
  after_results_simp

theorem w2_d (c : Dev nD) : W2 m ρ c (Proc.devRef .tc main_v12) = Cert.ReferenceIdeal.Read.val_main_v12 (F := Ideal) (m ((c : Thread nD τ).loc main_arg1)) :=
  (W2_arr m ρ c 2).trans (((dat0 (V1 m ρ) c).arrAt_in 2 rfl _).trans ((A_eq0 (V1 m ρ) c 2).trans (e0_d m ρ c)))

theorem e1_S (c : Dev nD) : V3 m ρ c main_v40 = (Host.scatterAdd (F := Ideal) (φ := .f32) Cert.ReferenceIdeal.scatter_S50000x128_S800000x1_S800000x128_1_0_0_1
      (Cert.ReferenceIdeal.Read.val_main_v54 (F := Ideal)) (Cert.ReferenceIdeal.Read.val_main_v55 (F := Ideal) (m ((c : Thread nD τ).loc main_arg1)))
      (Host.gather (α := Ideal .f32) Cert.ReferenceIdeal.gather_S50000x128_S800000x1_S800000x128_1_0_n_n_0_1_1128 (H1 m ρ c) (Cert.ReferenceIdeal.Read.val_main_v52 (F := Ideal) (m ((c : Thread nD τ).loc main_arg1)))) : (⟨Cert.ReferenceIdeal.S50000x128, .f32⟩ : BufTy).Contents (Elt Ideal)) := by
  show StableHlo.after hostOps1 (W2 m ρ c) (Proc.devRef .tc main_v40) = _
  after_results_simp
  rw [w2_src, w2_dst, W2_arr m ρ c 10]
  rfl

theorem e1_h (c : Dev nD) : V3 m ρ c main_v30 = H1 m ρ c := by
  show StableHlo.after hostOps1 (W2 m ρ c) (Proc.devRef .tc main_v30) = _
  after_results_simp
  exact W2_arr m ρ c 10

theorem e1_d (c : Dev nD) : V3 m ρ c main_v12 = Cert.ReferenceIdeal.Read.val_main_v12 (F := Ideal) (m ((c : Thread nD τ).loc main_arg1)) := by
  show StableHlo.after hostOps1 (W2 m ρ c) (Proc.devRef .tc main_v12) = _
  after_results_simp
  exact w2_d m ρ c

theorem e1_wl (c : Dev nD) : V3 m ρ c main_v41 = Cert.ReferenceIdeal.Read.val_main_v59 (F := Ideal) (m ((c : Thread nD τ).loc main_arg9)) := by
  show StableHlo.after hostOps1 (W2 m ρ c) (Proc.devRef .tc main_v41) = _
  after_results_simp
  rw [w2_arg9]
  rfl

theorem e1_wr (c : Dev nD) : V3 m ρ c main_v43 = Cert.ReferenceIdeal.Read.val_main_v64 (F := Ideal) (m ((c : Thread nD τ).loc main_arg11)) := by
  show StableHlo.after hostOps1 (W2 m ρ c) (Proc.devRef .tc main_v43) = _
  after_results_simp
  rw [w2_arg11]
  rfl

theorem e1_bl (c : Dev nD) : V3 m ρ c main_v42 = shapeCast S1x128 (m ((c : Thread nD τ).loc main_arg10)) shapeCasts_S128_S1x128 := by
  show StableHlo.after hostOps1 (W2 m ρ c) (Proc.devRef .tc main_v42) = _
  after_results_simp
  rw [w2_arg10]
  rfl

theorem e1_g (c : Dev nD) : V3 m ρ c main_v44 = shapeCast S1x128 (m ((c : Thread nD τ).loc main_arg12)) shapeCasts_S128_S1x128 := by
  show StableHlo.after hostOps1 (W2 m ρ c) (Proc.devRef .tc main_v44) = _
  after_results_simp
  rw [w2_arg12]
  rfl

theorem e1_be (c : Dev nD) : V3 m ρ c main_v45 = shapeCast S1x128 (m ((c : Thread nD τ).loc main_arg13)) shapeCasts_S128_S1x128 := by
  show StableHlo.after hostOps1 (W2 m ρ c) (Proc.devRef .tc main_v45) = _
  after_results_simp
  rw [w2_arg13]
  rfl

theorem e1_mu (c : Dev nD) : V3 m ρ c main_v46 = shapeCast S1x128 (m ((c : Thread nD τ).loc main_arg14)) shapeCasts_S128_S1x128 := by
  show StableHlo.after hostOps1 (W2 m ρ c) (Proc.devRef .tc main_v46) = _
  after_results_simp
  rw [w2_arg14]
  rfl

theorem e1_v (c : Dev nD) : V3 m ρ c main_v47 = shapeCast S1x128 (m ((c : Thread nD τ).loc main_arg15)) shapeCasts_S128_S1x128 := by
  show StableHlo.after hostOps1 (W2 m ρ c) (Proc.devRef .tc main_v47) = _
  after_results_simp
  rw [w2_arg15]
  rfl

end Cert.KernelIdeal.Entries

end
-- ==== Proof.Entries2.lean ====
/-
  What the third region finds in its twelve input arrays.

  The third stretch of host operations gathers and adds the SECOND region's result along the edges, transposes the last
  layer's weights and the output head's weight row, and recasts the per-feature vectors and the head's bias; the edge
  lists and the inverse degrees are still those computed before the first region.
-/
import proofs.«127282_j43224550868302_2_alg».proof.Proof.Gen.KernelIdeal.Frame
import proofs.«127282_j43224550868302_2_alg».proof.Proof.Gen.ReferenceIdeal.Read
import proofs.«127282_j43224550868302_2_alg».proof.Proof.Entries0
import proofs.«127282_j43224550868302_2_alg».proof.Proof.Entries1
import Idealize.ShloMosaic.Lib.StableHlo.Run

set_option maxRecDepth 16384

noncomputable section

namespace Cert.KernelIdeal.Entries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The second region's result array. -/
abbrev H2 (c : Dev nD) := (dat1 (V3 m ρ) c).arrAt 10 cfg1.N

theorem w2_arg16 (c : Dev nD) : W2 m ρ c (Proc.devRef .tc main_arg16) = (m ((c : Thread nD τ).loc main_arg16)) := by
  rw [W2_of_ne m ρ c main_arg16 (by decide)]
  show StableHlo.after hostOps0 (W0 m ρ c) (Proc.devRef .tc main_arg16) = _
  after_results_simp

theorem w2_arg17 (c : Dev nD) : W2 m ρ c (Proc.devRef .tc main_arg17) = (m ((c : Thread nD τ).loc main_arg17)) := by
  rw [W2_of_ne m ρ c main_arg17 (by decide)]
  show StableHlo.after hostOps0 (W0 m ρ c) (Proc.devRef .tc main_arg17) = _
  after_results_simp

theorem w2_arg18 (c : Dev nD) : W2 m ρ c (Proc.devRef .tc main_arg18) = (m ((c : Thread nD τ).loc main_arg18)) := by
  rw [W2_of_ne m ρ c main_arg18 (by decide)]
  show StableHlo.after hostOps0 (W0 m ρ c) (Proc.devRef .tc main_arg18) = _
  after_results_simp

theorem w2_arg19 (c : Dev nD) : W2 m ρ c (Proc.devRef .tc main_arg19) = (m ((c : Thread nD τ).loc main_arg19)) := by
  rw [W2_of_ne m ρ c main_arg19 (by decide)]
  show StableHlo.after hostOps0 (W0 m ρ c) (Proc.devRef .tc main_arg19) = _
  after_results_simp

theorem w2_arg20 (c : Dev nD) : W2 m ρ c (Proc.devRef .tc main_arg20) = (m ((c : Thread nD τ).loc main_arg20)) := by
  rw [W2_of_ne m ρ c main_arg20 (by decide)]
  show StableHlo.after hostOps0 (W0 m ρ c) (Proc.devRef .tc main_arg20) = _
  after_results_simp

theorem w2_arg21 (c : Dev nD) : W2 m ρ c (Proc.devRef .tc main_arg21) = (m ((c : Thread nD τ).loc main_arg21)) := by
  rw [W2_of_ne m ρ c main_arg21 (by decide)]
  show StableHlo.after hostOps0 (W0 m ρ c) (Proc.devRef .tc main_arg21) = _
  after_results_simp

theorem w2_arg22 (c : Dev nD) : W2 m ρ c (Proc.devRef .tc main_arg22) = (m ((c : Thread nD τ).loc main_arg22)) := by
  rw [W2_of_ne m ρ c main_arg22 (by decide)]
  show StableHlo.after hostOps0 (W0 m ρ c) (Proc.devRef .tc main_arg22) = _
  after_results_simp

theorem w2_arg23 (c : Dev nD) : W2 m ρ c (Proc.devRef .tc main_arg23) = (m ((c : Thread nD τ).loc main_arg23)) := by
  rw [W2_of_ne m ρ c main_arg23 (by decide)]
  show StableHlo.after hostOps0 (W0 m ρ c) (Proc.devRef .tc main_arg23) = _
  after_results_simp

theorem w2_arg24 (c : Dev nD) : W2 m ρ c (Proc.devRef .tc main_arg24) = (m ((c : Thread nD τ).loc main_arg24)) := by
  rw [W2_of_ne m ρ c main_arg24 (by decide)]
  show StableHlo.after hostOps0 (W0 m ρ c) (Proc.devRef .tc main_arg24) = _
  after_results_simp

theorem w4_src (c : Dev nD) : W4 m ρ c (Proc.devRef .tc main_v1) = Cert.ReferenceIdeal.Read.val_main_v1 (F := Ideal) (m ((c : Thread nD τ).loc main_arg1)) := by
  rw [W4_of_ne m ρ c main_v1 (by decide)]
  show StableHlo.after hostOps1 (W2 m ρ c) (Proc.devRef .tc main_v1) = _
  after_results_simp
  exact w2_src m ρ c

theorem w4_dst (c : Dev nD) : W4 m ρ c (Proc.devRef .tc main_v3) = Cert.ReferenceIdeal.Read.val_main_v3 (F := Ideal) (m ((c : Thread nD τ).loc main_arg1)) := by
  rw [W4_of_ne m ρ c main_v3 (by decide)]
  show StableHlo.after hostOps1 (W2 m ρ c) (Proc.devRef .tc main_v3) = _
  after_results_simp
  exact w2_dst m ρ c

theorem w4_arg16 (c : Dev nD) : W4 m ρ c (Proc.devRef .tc main_arg16) = (m ((c : Thread nD τ).loc main_arg16)) := by
  rw [W4_of_ne m ρ c main_arg16 (by decide)]
  show StableHlo.after hostOps1 (W2 m ρ c) (Proc.devRef .tc main_arg16) = _
  after_results_simp
  exact w2_arg16 m ρ c

theorem w4_arg17 (c : Dev nD) : W4 m ρ c (Proc.devRef .tc main_arg17) = (m ((c : Thread nD τ).loc main_arg17)) := by
  rw [W4_of_ne m ρ c main_arg17 (by decide)]
  show StableHlo.after hostOps1 (W2 m ρ c) (Proc.devRef .tc main_arg17) = _
  after_results_simp
  exact w2_arg17 m ρ c

theorem w4_arg18 (c : Dev nD) : W4 m ρ c (Proc.devRef .tc main_arg18) = (m ((c : Thread nD τ).loc main_arg18)) := by
  rw [W4_of_ne m ρ c main_arg18 (by decide)]
  show StableHlo.after hostOps1 (W2 m ρ c) (Proc.devRef .tc main_arg18) = _
  after_results_simp
  exact w2_arg18 m ρ c

theorem w4_arg19 (c : Dev nD) : W4 m ρ c (Proc.devRef .tc main_arg19) = (m ((c : Thread nD τ).loc main_arg19)) := by
  rw [W4_of_ne m ρ c main_arg19 (by decide)]
  show StableHlo.after hostOps1 (W2 m ρ c) (Proc.devRef .tc main_arg19) = _
  after_results_simp
  exact w2_arg19 m ρ c

theorem w4_arg20 (c : Dev nD) : W4 m ρ c (Proc.devRef .tc main_arg20) = (m ((c : Thread nD τ).loc main_arg20)) := by
  rw [W4_of_ne m ρ c main_arg20 (by decide)]
  show StableHlo.after hostOps1 (W2 m ρ c) (Proc.devRef .tc main_arg20) = _
  after_results_simp
  exact w2_arg20 m ρ c

theorem w4_arg21 (c : Dev nD) : W4 m ρ c (Proc.devRef .tc main_arg21) = (m ((c : Thread nD τ).loc main_arg21)) := by
  rw [W4_of_ne m ρ c main_arg21 (by decide)]
  show StableHlo.after hostOps1 (W2 m ρ c) (Proc.devRef .tc main_arg21) = _
  after_results_simp
  exact w2_arg21 m ρ c

theorem w4_arg22 (c : Dev nD) : W4 m ρ c (Proc.devRef .tc main_arg22) = (m ((c : Thread nD τ).loc main_arg22)) := by
  rw [W4_of_ne m ρ c main_arg22 (by decide)]
  show StableHlo.after hostOps1 (W2 m ρ c) (Proc.devRef .tc main_arg22) = _
  after_results_simp
  exact w2_arg22 m ρ c

theorem w4_arg23 (c : Dev nD) : W4 m ρ c (Proc.devRef .tc main_arg23) = (m ((c : Thread nD τ).loc main_arg23)) := by
  rw [W4_of_ne m ρ c main_arg23 (by decide)]
  show StableHlo.after hostOps1 (W2 m ρ c) (Proc.devRef .tc main_arg23) = _
  after_results_simp
  exact w2_arg23 m ρ c

theorem w4_arg24 (c : Dev nD) : W4 m ρ c (Proc.devRef .tc main_arg24) = (m ((c : Thread nD τ).loc main_arg24)) := by
  rw [W4_of_ne m ρ c main_arg24 (by decide)]
  show StableHlo.after hostOps1 (W2 m ρ c) (Proc.devRef .tc main_arg24) = _
  after_results_simp
  exact w2_arg24 m ρ c

theorem w4_d (c : Dev nD) : W4 m ρ c (Proc.devRef .tc main_v12) = Cert.ReferenceIdeal.Read.val_main_v12 (F := Ideal) (m ((c : Thread nD τ).loc main_arg1)) :=
  (W4_arr m ρ c 2).trans (((dat1 (V3 m ρ) c).arrAt_in 2 rfl _).trans ((A_eq1 (V3 m ρ) c 2).trans (e1_d m ρ c)))

theorem e2_S (c : Dev nD) : V5 m ρ c main_v58 = (Host.scatterAdd (F := Ideal) (φ := .f32) Cert.ReferenceIdeal.scatter_S50000x128_S800000x1_S800000x128_1_0_0_1
      (Cert.ReferenceIdeal.Read.val_main_v88 (F := Ideal)) (Cert.ReferenceIdeal.Read.val_main_v89 (F := Ideal) (m ((c : Thread nD τ).loc main_arg1)))
      (Host.gather (α := Ideal .f32) Cert.ReferenceIdeal.gather_S50000x128_S800000x1_S800000x128_1_0_n_n_0_1_1128 (H2 m ρ c) (Cert.ReferenceIdeal.Read.val_main_v86 (F := Ideal) (m ((c : Thread nD τ).loc main_arg1)))) : (⟨Cert.ReferenceIdeal.S50000x128, .f32⟩ : BufTy).Contents (Elt Ideal)) := by
  show StableHlo.after hostOps2 (W4 m ρ c) (Proc.devRef .tc main_v58) = _
  after_results_simp
  rw [w4_src, w4_dst, W4_arr m ρ c 10]
  rfl

theorem e2_h (c : Dev nD) : V5 m ρ c main_v48 = H2 m ρ c := by
  show StableHlo.after hostOps2 (W4 m ρ c) (Proc.devRef .tc main_v48) = _
  after_results_simp
  exact W4_arr m ρ c 10

theorem e2_d (c : Dev nD) : V5 m ρ c main_v12 = Cert.ReferenceIdeal.Read.val_main_v12 (F := Ideal) (m ((c : Thread nD τ).loc main_arg1)) := by
  show StableHlo.after hostOps2 (W4 m ρ c) (Proc.devRef .tc main_v12) = _
  after_results_simp
  exact w4_d m ρ c

theorem e2_wl (c : Dev nD) : V5 m ρ c main_v59 = Cert.ReferenceIdeal.Read.val_main_v93 (F := Ideal) (m ((c : Thread nD τ).loc main_arg16)) := by
  show StableHlo.after hostOps2 (W4 m ρ c) (Proc.devRef .tc main_v59) = _
  after_results_simp
  rw [w4_arg16]
  rfl

theorem e2_wr (c : Dev nD) : V5 m ρ c main_v61 = Cert.ReferenceIdeal.Read.val_main_v98 (F := Ideal) (m ((c : Thread nD τ).loc main_arg18)) := by
  show StableHlo.after hostOps2 (W4 m ρ c) (Proc.devRef .tc main_v61) = _
  after_results_simp
  rw [w4_arg18]
  rfl

theorem e2_fw (c : Dev nD) : V5 m ρ c main_v66 = Cert.ReferenceIdeal.Read.val_main_v114 (F := Ideal) (m ((c : Thread nD τ).loc main_arg23)) := by
  show StableHlo.after hostOps2 (W4 m ρ c) (Proc.devRef .tc main_v66) = _
  after_results_simp
  rw [w4_arg23]
  rfl

theorem e2_bl (c : Dev nD) : V5 m ρ c main_v60 = shapeCast S1x64 (m ((c : Thread nD τ).loc main_arg17)) shapeCasts_S64_S1x64 := by
  show StableHlo.after hostOps2 (W4 m ρ c) (Proc.devRef .tc main_v60) = _
  after_results_simp
  rw [w4_arg17]
  rfl

theorem e2_g (c : Dev nD) : V5 m ρ c main_v62 = shapeCast S1x64 (m ((c : Thread nD τ).loc main_arg19)) shapeCasts_S64_S1x64 := by
  show StableHlo.after hostOps2 (W4 m ρ c) (Proc.devRef .tc main_v62) = _
  after_results_simp
  rw [w4_arg19]
  rfl

theorem e2_be (c : Dev nD) : V5 m ρ c main_v63 = shapeCast S1x64 (m ((c : Thread nD τ).loc main_arg20)) shapeCasts_S64_S1x64 := by
  show StableHlo.after hostOps2 (W4 m ρ c) (Proc.devRef .tc main_v63) = _
  after_results_simp
  rw [w4_arg20]
  rfl

theorem e2_mu (c : Dev nD) : V5 m ρ c main_v64 = shapeCast S1x64 (m ((c : Thread nD τ).loc main_arg21)) shapeCasts_S64_S1x64 := by
  show StableHlo.after hostOps2 (W4 m ρ c) (Proc.devRef .tc main_v64) = _
  after_results_simp
  rw [w4_arg21]
  rfl

theorem e2_v (c : Dev nD) : V5 m ρ c main_v65 = shapeCast S1x64 (m ((c : Thread nD τ).loc main_arg22)) shapeCasts_S64_S1x64 := by
  show StableHlo.after hostOps2 (W4 m ρ c) (Proc.devRef .tc main_v65) = _
  after_results_simp
  rw [w4_arg22]
  rfl

theorem e2_fb (c : Dev nD) : V5 m ρ c main_v67 = shapeCast S1x1 (m ((c : Thread nD τ).loc main_arg24)) shapeCasts_S1_S1x1 := by
  show StableHlo.after hostOps2 (W4 m ρ c) (Proc.devRef .tc main_v67) = _
  after_results_simp
  rw [w4_arg24]
  rfl

end Cert.KernelIdeal.Entries

end
-- ==== Proof.RefLayer2.lean ====
/-
  The reference's last layer and output head, one entry at a time.

  The last layer has no rectifier; its 64 batch-normed features are contracted with the head's weight row, the head's
  bias is added, and the logistic function is spelled `1 / (1 + exp (−x))`.
-/
import proofs.«127282_j43224550868302_2_alg».proof.Proof.Gen.ReferenceIdeal.Read
import proofs.«127282_j43224550868302_2_alg».proof.Proof.RowFormulas
import Idealize.ShloMosaic.Lib.ValueIdx
import Idealize.ShloMosaic.Lib.ValueLayout

set_option maxRecDepth 16384

noncomputable section

namespace Cert.ReferenceIdeal.Layers

open Cert.ReferenceIdeal Cert.ReferenceIdeal.Read Cert.Sage
open Idealize.ShloMosaic Idealize.ShloMosaic.ValueIdx

/-- Entry `(r, j)` of the reference's last batch-normed layer `v113` (no rectifier in this layer). -/
theorem v113_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S64x128, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal))
    (r : Fin 50000) (j : Fin 64) :
    val_main_v113 (F := Ideal) x0 x1 x2 x3 x4 x5 x6 x7 x8 x9 x10 x11 x12 x13 x14 x15 x16 x17 x18 x19 x20 x21 x22 (ix2 r j)
      = bnR (conv (fun k => val_main_v90 (F := Ideal) x0 x1 x2 x3 x4 x5 x6 x7 x8 x9 x10 x11 x12 x13 x14 x15 (ix2 r k)) (fun k => (val_main_v80 (F := Ideal) x0 x1 x2 x3 x4 x5 x6 x7 x8 x9 x10 x11 x12 x13 x14 x15) (ix2 r k)) (val_main_v12 (F := Ideal) x1 (ix2 r (0 : Fin 1)))
            (fun k => val_main_v93 (F := Ideal) x16 (ix2 k j)) (fun k => val_main_v98 (F := Ideal) x18 (ix2 k j)) (x17 (ix1 j)))
          (x19 (ix1 j)) (x20 (ix1 j)) (x21 (ix1 j)) (x22 (ix1 j)) := by
  have hd1 : val_main_v94 (F := Ideal) x0 x1 x2 x3 x4 x5 x6 x7 x8 x9 x10 x11 x12 x13 x14 x15 x16 (ix2 r j)
      = ∑ k : Fin 128, (val_main_v90 (F := Ideal) x0 x1 x2 x3 x4 x5 x6 x7 x8 x9 x10 x11 x12 x13 x14 x15 (ix2 r k) * val_main_v12 (F := Ideal) x1 (ix2 r (0 : Fin 1))) * val_main_v93 (F := Ideal) x16 (ix2 k j) := by
    rw [val_main_v94_apply]
    refine Finset.sum_congr rfl fun k _ => ?_
    rw [val_main_v92_apply, val_main_v91_apply]
    have e1 : lidx_main_v94 (ix2 r j) k = ix2 r k := funext fun a => Fin.ext (by match a with | ⟨0, _⟩ => rfl | ⟨1, _⟩ => rfl)
    have e2 : ridx_main_v94 (ix2 r j) k = ix2 k j := funext fun a => Fin.ext (by match a with | ⟨0, _⟩ => rfl | ⟨1, _⟩ => rfl)
    have e3 : idx_main_v91 (ix2 r k) = ix2 r (0 : Fin 1) := funext fun a => Fin.ext (by match a with | ⟨0, _⟩ => rfl | ⟨1, _⟩ => rfl)
    rw [e1, e2, e3]
    rfl
  have hd2 : val_main_v99 (F := Ideal) x0 x1 x2 x3 x4 x5 x6 x7 x8 x9 x10 x11 x12 x13 x14 x15 x18 (ix2 r j) = ∑ k : Fin 128, (val_main_v80 (F := Ideal) x0 x1 x2 x3 x4 x5 x6 x7 x8 x9 x10 x11 x12 x13 x14 x15) (ix2 r k) * val_main_v98 (F := Ideal) x18 (ix2 k j) := by
    rw [val_main_v99_apply]
    refine Finset.sum_congr rfl fun k _ => ?_
    have e1 : lidx_main_v99 (ix2 r j) k = ix2 r k := funext fun a => Fin.ext (by match a with | ⟨0, _⟩ => rfl | ⟨1, _⟩ => rfl)
    have e2 : ridx_main_v99 (ix2 r j) k = ix2 k j := funext fun a => Fin.ext (by match a with | ⟨0, _⟩ => rfl | ⟨1, _⟩ => rfl)
    rw [e1, e2]
  rw [val_main_v113_apply, val_main_v110_apply, val_main_v103_apply, val_main_v100_apply, val_main_v97_apply, hd1, hd2]
  rw [val_main_v96_apply, val_main_v95_apply, val_main_v102_apply, val_main_v101_apply, val_main_v112_apply, val_main_v111_apply, val_main_v109_apply, val_main_v108_apply,
    val_main_v107_apply, val_main_v106_apply, val_main_v105_apply, val_main_v104_apply, val_main_cst_13_apply]
  have i1 : idx_main_v95 (idx_main_v96 (ix2 r j)) = ix1 j := funext fun a => Fin.ext (by match a with | ⟨0, _⟩ => rfl)
  have i2 : idx_main_v101 (idx_main_v102 (ix2 r j)) = ix1 j := funext fun a => Fin.ext (by match a with | ⟨0, _⟩ => rfl)
  have i3 : idx_main_v108 (idx_main_v109 (ix2 r j)) = ix1 j := funext fun a => Fin.ext (by match a with | ⟨0, _⟩ => rfl)
  have i4 : idx_main_v111 (idx_main_v112 (ix2 r j)) = ix1 j := funext fun a => Fin.ext (by match a with | ⟨0, _⟩ => rfl)
  rw [i1, i2, i3, i4]
  rfl

/-- The host's spelling of the logistic function, operation by operation. -/
theorem logistic_host (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x :=
  logistic_spelled x

/-- Entry `r` of the reference's result: the head's dot product over the 64 features, its bias, and the logistic function
    spelled as `1 / (1 + exp (−x))`. -/
theorem v124_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S64x128, .f32⟩ : BufTy).Contents (Elt Ideal)) (x17 : (⟨S64, .f32⟩ : BufTy).Contents (Elt Ideal)) (x18 : (⟨S64x128, .f32⟩ : BufTy).Contents (Elt Ideal)) (x19 : (⟨S64, .f32⟩ : BufTy).Contents (Elt Ideal)) (x20 : (⟨S64, .f32⟩ : BufTy).Contents (Elt Ideal)) (x21 : (⟨S64, .f32⟩ : BufTy).Contents (Elt Ideal)) (x22 : (⟨S64, .f32⟩ : BufTy).Contents (Elt Ideal)) (x23 : (⟨S1x64, .f32⟩ : BufTy).Contents (Elt Ideal)) (x24 : (⟨S1, .f32⟩ : BufTy).Contents (Elt Ideal))
    (r : Fin 50000) :
    val_main_v124 (F := Ideal) x0 x1 x2 x3 x4 x5 x6 x7 x8 x9 x10 x11 x12 x13 x14 x15 x16 x17 x18 x19 x20 x21 x22 x23 x24 (ix2 r (0 : Fin 1))
      = head (fun j => val_main_v113 (F := Ideal) x0 x1 x2 x3 x4 x5 x6 x7 x8 x9 x10 x11 x12 x13 x14 x15 x16 x17 x18 x19 x20 x21 x22 (ix2 r j)) (fun j => val_main_v114 (F := Ideal) x23 (ix2 j (0 : Fin 1))) (x24 (ix1 (0 : Fin 1))) := by
  have hd : val_main_v115 (F := Ideal) x0 x1 x2 x3 x4 x5 x6 x7 x8 x9 x10 x11 x12 x13 x14 x15 x16 x17 x18 x19 x20 x21 x22 x23 (ix2 r (0 : Fin 1)) = ∑ j : Fin 64, val_main_v113 (F := Ideal) x0 x1 x2 x3 x4 x5 x6 x7 x8 x9 x10 x11 x12 x13 x14 x15 x16 x17 x18 x19 x20 x21 x22 (ix2 r j) * val_main_v114 (F := Ideal) x23 (ix2 j (0 : Fin 1)) := by
    rw [val_main_v115_apply]
    refine Finset.sum_congr rfl fun k _ => ?_
    have e1 : lidx_main_v115 (ix2 r (0 : Fin 1)) k = ix2 r k := funext fun a => Fin.ext (by match a with | ⟨0, _⟩ => rfl | ⟨1, _⟩ => rfl)
    have e2 : ridx_main_v115 (ix2 r (0 : Fin 1)) k = ix2 k (0 : Fin 1) := funext fun a => Fin.ext (by match a with | ⟨0, _⟩ => rfl | ⟨1, _⟩ => rfl)
    rw [e1, e2]
  rw [val_main_v124_apply, val_main_v122_apply, val_main_v120_apply, val_main_v119_apply, val_main_v118_apply, hd, val_main_v117_apply, val_main_v116_apply,
    val_main_v121_apply, val_main_cst_14_apply, val_main_v123_apply, val_main_cst_15_apply]
  have i1 : idx_main_v116 (idx_main_v117 (ix2 r (0 : Fin 1))) = ix1 (0 : Fin 1) := funext fun a => Fin.ext (by match a with | ⟨0, _⟩ => rfl)
  rw [i1]
  rw [logistic_host]
  rfl

end Cert.ReferenceIdeal.Layers

end
-- ==== Proof.Layer1.lean ====
/-
  Region 1 (one SAGE layer over 10 row tiles of 5000 nodes), read as ONE function of the arrays it finds.

  Tile `t` holds rows `5000·t … 5000·t+4999` of the neighbour sums, the node features and the inverse degrees; the two
  weight matrices and the five per-feature rows are whole at every tile.  An entry `(p, q)` of the tile's result depends
  only on row `p` of the tile's three row-blocks, so the tile's result is the block of one function `layer` of the whole
  arrays: entry `(r, q)` is the batch-norm (product form) of the rectified pre-activation of node `r`, feature `q`.
  The ten tiles cover all 50000 rows, so the output array ends as `layer` everywhere.
-/
import proofs.«127282_j43224550868302_2_alg».proof.Proof.Gen.KernelIdeal.Frame
import proofs.«127282_j43224550868302_2_alg».proof.Proof.RowFormulas
import proofs.«127282_j43224550868302_2_alg».proof.Proof.LibPlainMatmul
import proofs.«127282_j43224550868302_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Layer1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-- Entry `(r, q)` of the layer's result, from the whole arrays. -/
def layer (S h : S50000x128.Idx → EReal) (d : S50000x1.Idx → EReal) (wl wr : S128x128.Idx → EReal)
    (bl g be mu v : S1x128.Idx → EReal) : S50000x128.Idx → EReal := fun i =>
  bnK (max (conv (fun k => S (ix2 (row i) k)) (fun k => h (ix2 (row i) k)) (d (ix2 (row i) (0 : Fin 1)))
        (fun k => wl (ix2 k (col i))) (fun k => wr (ix2 k (col i))) (bl (ix2 (0 : Fin 1) (col i))))
      (Ideal.ofBits .f32 0x00000000#32))
    (g (ix2 (0 : Fin 1) (col i))) (be (ix2 (0 : Fin 1) (col i))) (mu (ix2 (0 : Fin 1) (col i))) (v (ix2 (0 : Fin 1) (col i)))

/-- The tile body's arithmetic at entry `(p, q)` of the tile: it reads row `p` of the three row-blocks only. -/
theorem pay_apply (x0 x1 : Vec Ideal S5000x128 .f32) (x2 : Vec Ideal S5000x1 .f32) (x3 : Vec Ideal S128x128 .f32)
    (x4 : Vec Ideal S1x128 .f32) (x5 : Vec Ideal S128x128 .f32) (x6 x7 x8 x9 : Vec Ideal S1x128 .f32) (p : Fin 5000) (q : Fin 128) :
    k1_pay1 (k1_pay2 x2 x0 x1 x3 x5 x4) (k1_pay3 x6) (k1_pay4 x7) (k1_pay5 x8) (k1_pay6 x9) (k1_pay7 (F := Ideal)) (ix2 p q)
      = bnK (max (conv (fun k => x0 (ix2 p k)) (fun k => x1 (ix2 p k)) (x2 (ix2 p (0 : Fin 1)))
            (fun k => x3 (ix2 k q)) (fun k => x5 (ix2 k q)) (x4 (ix2 (0 : Fin 1) q))) (Ideal.ofBits .f32 0x00000000#32))
          (x6 (ix2 (0 : Fin 1) q)) (x7 (ix2 (0 : Fin 1) q)) (x8 (ix2 (0 : Fin 1) q)) (x9 (ix2 (0 : Fin 1) q)) := by
  unfold k1_pay1 k1_pay2 k1_pay3 k1_pay4 k1_pay5 k1_pay6 k1_pay7
  dsimp only
  simp only [shapeCast_self]
  simp only [addf_apply, mulf_apply, subf_apply, maximumf_apply, truncf_apply,
    broadcastTo_1b_ab_apply, Cert.Layout.broadcastTo_a1_ab_apply,
    Cert.LibPlainMatmul.matmul_zero_apply dot_S5000x128_S128x128_S5000x128_1_0_0_1_n_n rfl rfl rfl rfl rfl rfl]
  rfl

theorem hz : (![0, 0] : Fin 2 → Nat) = fun _ => 0 := funext fun a => by fin_cases a <;> rfl

/-- The printed index maps over the grid: the three row-blocked windows and the output move with the tile number
    along the rows; every other coordinate of every window is block 0. -/
theorem idx_facts : ∀ t : Fin cfg1.N,
    win1_0.index t (0 : Fin 2) = win1_10.index t (0 : Fin 2) ∧ win1_0.index t (1 : Fin 2) = 0
    ∧ win1_1.index t (0 : Fin 2) = win1_10.index t (0 : Fin 2) ∧ win1_1.index t (1 : Fin 2) = 0
    ∧ win1_2.index t (0 : Fin 2) = win1_10.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (1 : Fin 2) = 0 ∧ win1_10.index t (0 : Fin 2) ≤ 9 :=
  (by decide +kernel : ∀ t : Fin grid1.N, _)

/-- Every row tile is some grid point's. -/
theorem idx_onto : ∀ q0 : Fin 10, ∃ t : Fin cfg1.N, win1_10.index t = ![q0.val, 0] :=
  (by decide +kernel : ∀ q0 : Fin 10, ∃ t : Fin grid1.N, win1_10.index t = ![q0.val, 0])

variable (V : (c : Dev nD) → (b : Ref sig .tc) → Buf (Elt Ideal) ((c : Thread nD τ).loc b))

set_option maxHeartbeats 4000000 in
/-- WHAT TILE `t` WRITES BACK is tile `t` of `layer` of the arrays as the region finds them. -/
theorem flushed_eq (c : Dev nD) (t : Fin cfg1.N) :
    (dat1 V c).flushed 10 t = ((cfg1.win 10).blk t).view.read (Elt Ideal)
      (layer (V c main_v40) (V c main_v30) (V c main_v12) (V c main_v41) (V c main_v43) (V c main_v42) (V c main_v44) (V c main_v45) (V c main_v46) (V c main_v47)) := by
  show (cfg1.win 10).cut (grid1.coords t) ((dat1 V c).after 10 t) = _
  rw [after1_10]
  unfold out1_10
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e0', e1, e1', e2, e2', e3, e3', e4, e4', e5, e5', e6, e6', e7, e7', e8, e8', e9, e9', eo', eo⟩ := idx_facts t
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  show _ = layer _ _ _ _ _ _ _ _ _ _ (((cfg1.win 10).blk t).view.emb (ix2 p q))
  have hq : col (((cfg1.win 10).blk t).view.emb (ix2 p q)) = q := Fin.ext (by
    show win1_10.index t (1 : Fin 2) * 128 + 1 * q.val = q.val; omega)
  have rS : ∀ k : Fin 128, ((cfg1.win 0).blk t).view.emb (ix2 p k) = ix2 (row (((cfg1.win 10).blk t).view.emb (ix2 p q))) k := fun k => by
    funext a; apply Fin.ext
    match a with
    | ⟨0, _⟩ => show win1_0.index t (0 : Fin 2) * 5000 + 1 * p.val = win1_10.index t (0 : Fin 2) * 5000 + 1 * p.val; omega
    | ⟨1, _⟩ => show win1_0.index t (1 : Fin 2) * 128 + 1 * k.val = k.val; omega
  have rH : ∀ k : Fin 128, ((cfg1.win 1).blk t).view.emb (ix2 p k) = ix2 (row (((cfg1.win 10).blk t).view.emb (ix2 p q))) k := fun k => by
    funext a; apply Fin.ext
    match a with
    | ⟨0, _⟩ => show win1_1.index t (0 : Fin 2) * 5000 + 1 * p.val = win1_10.index t (0 : Fin 2) * 5000 + 1 * p.val; omega
    | ⟨1, _⟩ => show win1_1.index t (1 : Fin 2) * 128 + 1 * k.val = k.val; omega
  have rD : ((cfg1.win 2).blk t).view.emb (ix2 p (0 : Fin 1)) = ix2 (row (((cfg1.win 10).blk t).view.emb (ix2 p q))) (0 : Fin 1) := by
    funext a; apply Fin.ext
    match a with
    | ⟨0, _⟩ => show win1_2.index t (0 : Fin 2) * 5000 + 1 * p.val = win1_10.index t (0 : Fin 2) * 5000 + 1 * p.val; omega
    | ⟨1, _⟩ => show win1_2.index t (1 : Fin 2) * 1 + 1 * 0 = 0; omega
  have rWl : ∀ k : Fin 128, ((cfg1.win 3).blk t).view.emb (ix2 k q) = ix2 k q := fun k => by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  have rWr : ∀ k : Fin 128, ((cfg1.win 5).blk t).view.emb (ix2 k q) = ix2 k q := fun k => by
    funext a; apply Fin.ext
    match a with
    | ⟨0, _⟩ => show win1_5.index t (0 : Fin 2) * 128 + 1 * k.val = k.val; omega
    | ⟨1, _⟩ => show win1_5.index t (1 : Fin 2) * 128 + 1 * q.val = q.val; omega
  have r4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have r6 : ((cfg1.win 6).blk t).view.emb (ix2 (0 : Fin 1) q) = ix2 (0 : Fin 1) q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  have r7 : ((cfg1.win 7).blk t).view.emb (ix2 (0 : Fin 1) q) = ix2 (0 : Fin 1) q := by
    funext a; apply Fin.ext
    match a with
    | ⟨0, _⟩ => show win1_7.index t (0 : Fin 2) * 1 + 1 * 0 = 0; omega
    | ⟨1, _⟩ => show win1_7.index t (1 : Fin 2) * 128 + 1 * q.val = q.val; omega
  have r8 : ((cfg1.win 8).blk t).view.emb (ix2 (0 : Fin 1) q) = ix2 (0 : Fin 1) q := by
    funext a; apply Fin.ext
    match a with
    | ⟨0, _⟩ => show win1_8.index t (0 : Fin 2) * 1 + 1 * 0 = 0; omega
    | ⟨1, _⟩ => show win1_8.index t (1 : Fin 2) * 128 + 1 * q.val = q.val; omega
  have r9 : ((cfg1.win 9).blk t).view.emb (ix2 (0 : Fin 1) q) = ix2 (0 : Fin 1) q := by
    funext a; apply Fin.ext
    match a with
    | ⟨0, _⟩ => show win1_9.index t (0 : Fin 2) * 1 + 1 * 0 = 0; omega
    | ⟨1, _⟩ => show win1_9.index t (1 : Fin 2) * 128 + 1 * q.val = q.val; omega
  unfold layer
  rw [hq]
  show bnK (max (conv (fun k => V c main_v40 (((cfg1.win 0).blk t).view.emb (ix2 p k)))
        (fun k => V c main_v30 (((cfg1.win 1).blk t).view.emb (ix2 p k)))
        (V c main_v12 (((cfg1.win 2).blk t).view.emb (ix2 p (0 : Fin 1))))
        (fun k => V c main_v41 (((cfg1.win 3).blk t).view.emb (ix2 k q)))
        (fun k => V c main_v43 (((cfg1.win 5).blk t).view.emb (ix2 k q)))
        (V c main_v42 (((cfg1.win 4).blk t).view.emb (ix2 (0 : Fin 1) q)))) _)
      (V c main_v44 (((cfg1.win 6).blk t).view.emb (ix2 (0 : Fin 1) q)))
      (V c main_v45 (((cfg1.win 7).blk t).view.emb (ix2 (0 : Fin 1) q)))
      (V c main_v46 (((cfg1.win 8).blk t).view.emb (ix2 (0 : Fin 1) q)))
      (V c main_v47 (((cfg1.win 9).blk t).view.emb (ix2 (0 : Fin 1) q))) = _
  have hS : (fun k : Fin 128 => V c main_v40 (((cfg1.win 0).blk t).view.emb (ix2 p k)))
      = fun k => V c main_v40 (ix2 (row (((cfg1.win 10).blk t).view.emb (ix2 p q))) k) := funext fun k => congrArg _ (rS k)
  have hH : (fun k : Fin 128 => V c main_v30 (((cfg1.win 1).blk t).view.emb (ix2 p k)))
      = fun k => V c main_v30 (ix2 (row (((cfg1.win 10).blk t).view.emb (ix2 p q))) k) := funext fun k => congrArg _ (rH k)
  have hWl : (fun k : Fin 128 => V c main_v41 (((cfg1.win 3).blk t).view.emb (ix2 k q))) = fun k => V c main_v41 (ix2 k q) :=
    funext fun k => congrArg _ (rWl k)
  have hWr : (fun k : Fin 128 => V c main_v43 (((cfg1.win 5).blk t).view.emb (ix2 k q))) = fun k => V c main_v43 (ix2 k q) :=
    funext fun k => congrArg _ (rWr k)
  rw [hS, hH, hWl, hWr, rD, r4, r6, r7, r8, r9]

/-- An index of the array is in tile `t`'s block iff each coordinate is in the block's range on its axis. -/
theorem mem_blk (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v48).slice (win1_10.rect t)).set ↔ _
  rw [View.set_slice_whole, Rect.mem_set_unit]
  exact Iff.rfl

/-- The ten tiles cover every row. -/
theorem cover (i : S50000x128.Idx) : ∃ t : Fin cfg1.N, (cfg1.win 10).flush t = true ∧ i ∈ ((cfg1.win 10).blk t).view.set := by
  have hi0 : (i 0).val < 50000 := (i 0).isLt
  have hi1 : (i 1).val < 128 := (i 1).isLt
  obtain ⟨t, ht⟩ := idx_onto ⟨(i 0).val / 5000, by omega⟩
  have q0 : win1_10.index t (0 : Fin 2) = (i 0).val / 5000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 128 ≤ (i 1).val ∧ (i 1).val < win1_10.index t (1 : Fin 2) * 128 + 128; omega

/-- THE OUTPUT ARRAY after the region: `layer` of the arrays the region found. -/
theorem final (c : Dev nD) : (dat1 V c).arrAt 10 cfg1.N
    = layer (V c main_v40) (V c main_v30) (V c main_v12) (V c main_v41) (V c main_v43) (V c main_v42) (V c main_v44) (V c main_v45) (V c main_v46) (V c main_v47) :=
  (dat1 V c).arrAt_eq_of_cover 10 _ (fun t _ => flushed_eq V c t) cover

end Cert.KernelIdeal.Layer1

end
-- ==== Proof.RefLayer1.lean ====
/-
  The reference's second layer, one entry at a time.

  The same whole-array computation as the first layer, on the first layer's output and the neighbour sums of that
  output.  Read at entry `(r, q)` through the generated stage lemmas it is the row formula of RowFormulas.
-/
import proofs.«127282_j43224550868302_2_alg».proof.Proof.Gen.ReferenceIdeal.Read
import proofs.«127282_j43224550868302_2_alg».proof.Proof.RowFormulas
import Idealize.ShloMosaic.Lib.ValueIdx
import Idealize.ShloMosaic.Lib.ValueLayout

set_option maxRecDepth 16384

noncomputable section

namespace Cert.ReferenceIdeal.Layers

open Cert.ReferenceIdeal Cert.ReferenceIdeal.Read Cert.Sage
open Idealize.ShloMosaic Idealize.ShloMosaic.ValueIdx

/-- Entry `(r, q)` of the reference's layer output `v80`: the batch-norm (quotient form) of the rectified pre-activation, read
    from the neighbour sums, the layer's input, the inverse degrees, the two transposed weights and the per-feature vectors. -/
theorem v80_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal))
    (r : Fin 50000) (q : Fin 128) :
    val_main_v80 (F := Ideal) x0 x1 x2 x3 x4 x5 x6 x7 x8 x9 x10 x11 x12 x13 x14 x15 (ix2 r q)
      = bnR (max (conv (fun k => val_main_v56 (F := Ideal) x0 x1 x2 x3 x4 x5 x6 x7 x8 (ix2 r k)) (fun k => (val_main_v46 (F := Ideal) x0 x1 x2 x3 x4 x5 x6 x7 x8) (ix2 r k)) (val_main_v12 (F := Ideal) x1 (ix2 r (0 : Fin 1)))
            (fun k => val_main_v59 (F := Ideal) x9 (ix2 k q)) (fun k => val_main_v64 (F := Ideal) x11 (ix2 k q)) (x10 (ix1 q))) (Ideal.ofBits .f32 0x00000000#32))
          (x12 (ix1 q)) (x13 (ix1 q)) (x14 (ix1 q)) (x15 (ix1 q)) := by
  have hd1 : val_main_v60 (F := Ideal) x0 x1 x2 x3 x4 x5 x6 x7 x8 x9 (ix2 r q)
      = ∑ k : Fin 128, (val_main_v56 (F := Ideal) x0 x1 x2 x3 x4 x5 x6 x7 x8 (ix2 r k) * val_main_v12 (F := Ideal) x1 (ix2 r (0 : Fin 1))) * val_main_v59 (F := Ideal) x9 (ix2 k q) := by
    rw [val_main_v60_apply]
    refine Finset.sum_congr rfl fun k _ => ?_
    rw [val_main_v58_apply, val_main_v57_apply]
    have e1 : lidx_main_v60 (ix2 r q) k = ix2 r k := funext fun a => Fin.ext (by match a with | ⟨0, _⟩ => rfl | ⟨1, _⟩ => rfl)
    have e2 : ridx_main_v60 (ix2 r q) k = ix2 k q := funext fun a => Fin.ext (by match a with | ⟨0, _⟩ => rfl | ⟨1, _⟩ => rfl)
    have e3 : idx_main_v57 (ix2 r k) = ix2 r (0 : Fin 1) := funext fun a => Fin.ext (by match a with | ⟨0, _⟩ => rfl | ⟨1, _⟩ => rfl)
    rw [e1, e2, e3]
    rfl
  have hd2 : val_main_v65 (F := Ideal) x0 x1 x2 x3 x4 x5 x6 x7 x8 x11 (ix2 r q) = ∑ k : Fin 128, (val_main_v46 (F := Ideal) x0 x1 x2 x3 x4 x5 x6 x7 x8) (ix2 r k) * val_main_v64 (F := Ideal) x11 (ix2 k q) := by
    rw [val_main_v65_apply]
    refine Finset.sum_congr rfl fun k _ => ?_
    have e1 : lidx_main_v65 (ix2 r q) k = ix2 r k := funext fun a => Fin.ext (by match a with | ⟨0, _⟩ => rfl | ⟨1, _⟩ => rfl)
    have e2 : ridx_main_v65 (ix2 r q) k = ix2 k q := funext fun a => Fin.ext (by match a with | ⟨0, _⟩ => rfl | ⟨1, _⟩ => rfl)
    rw [e1, e2]
  rw [val_main_v80_apply, val_main_v77_apply, val_main_v70_apply, val_main_v67_apply, val_main_v66_apply, val_main_v63_apply, hd1, hd2]
  rw [val_main_v62_apply, val_main_v61_apply, val_main_v69_apply, val_main_v68_apply, val_main_v79_apply, val_main_v78_apply, val_main_v76_apply, val_main_v75_apply,
    val_main_v74_apply, val_main_v73_apply, val_main_v72_apply, val_main_v71_apply, val_main_cst_9_apply, val_main_call1_v0_apply, val_main_call1_cst_apply]
  have i1 : idx_main_v61 (idx_main_v62 (ix2 r q)) = ix1 q := funext fun a => Fin.ext (by match a with | ⟨0, _⟩ => rfl)
  have i2 : idx_main_v68 (idx_main_v69 (ix2 r q)) = ix1 q := funext fun a => Fin.ext (by match a with | ⟨0, _⟩ => rfl)
  have i3 : idx_main_v75 (idx_main_v76 (ix2 r q)) = ix1 q := funext fun a => Fin.ext (by match a with | ⟨0, _⟩ => rfl)
  have i4 : idx_main_v78 (idx_main_v79 (ix2 r q)) = ix1 q := funext fun a => Fin.ext (by match a with | ⟨0, _⟩ => rfl)
  rw [i1, i2, i3, i4]
  rfl

end Cert.ReferenceIdeal.Layers

end
-- ==== Proof.Layer0.lean ====
/-
  Region 0 (one SAGE layer over 10 row tiles of 5000 nodes), read as ONE function of the arrays it finds.

  Tile `t` holds rows `5000·t … 5000·t+4999` of the neighbour sums, the node features and the inverse degrees; the two
  weight matrices and the five per-feature rows are whole at every tile.  An entry `(p, q)` of the tile's result depends
  only on row `p` of the tile's three row-blocks, so the tile's result is the block of one function `layer` of the whole
  arrays: entry `(r, q)` is the batch-norm (product form) of the rectified pre-activation of node `r`, feature `q`.
  The ten tiles cover all 50000 rows, so the output array ends as `layer` everywhere.
-/
import proofs.«127282_j43224550868302_2_alg».proof.Proof.Gen.KernelIdeal.Frame
import proofs.«127282_j43224550868302_2_alg».proof.Proof.RowFormulas
import proofs.«127282_j43224550868302_2_alg».proof.Proof.LibPlainMatmul
import proofs.«127282_j43224550868302_2_alg».proof.Proof.LibColumnBroadcast
import Idealize.ShloMosaic.Lib.Pipeline.Value
import Idealize.ShloMosaic.Lib.ValueIdx
import Idealize.ShloMosaic.Lib.ValueLayout

set_option maxRecDepth 16384

noncomputable section

namespace Cert.KernelIdeal.Layer0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

/-- Entry `(r, q)` of the layer's result, from the whole arrays. -/
def layer (S h : S50000x128.Idx → EReal) (d : S50000x1.Idx → EReal) (wl wr : S128x128.Idx → EReal)
    (bl g be mu v : S1x128.Idx → EReal) : S50000x128.Idx → EReal := fun i =>
  bnK (max (conv (fun k => S (ix2 (row i) k)) (fun k => h (ix2 (row i) k)) (d (ix2 (row i) (0 : Fin 1)))
        (fun k => wl (ix2 k (col i))) (fun k => wr (ix2 k (col i))) (bl (ix2 (0 : Fin 1) (col i))))
      (Ideal.ofBits .f32 0x00000000#32))
    (g (ix2 (0 : Fin 1) (col i))) (be (ix2 (0 : Fin 1) (col i))) (mu (ix2 (0 : Fin 1) (col i))) (v (ix2 (0 : Fin 1) (col i)))

/-- The tile body's arithmetic at entry `(p, q)` of the tile: it reads row `p` of the three row-blocks only. -/
theorem pay_apply (x0 x1 : Vec Ideal S5000x128 .f32) (x2 : Vec Ideal S5000x1 .f32) (x3 : Vec Ideal S128x128 .f32)
    (x4 : Vec Ideal S1x128 .f32) (x5 : Vec Ideal S128x128 .f32) (x6 x7 x8 x9 : Vec Ideal S1x128 .f32) (p : Fin 5000) (q : Fin 128) :
    k0_pay1 (k0_pay2 x2 x0 x1 x3 x5 x4) (k0_pay3 x6) (k0_pay4 x7) (k0_pay5 x8) (k0_pay6 x9) (ix2 p q)
      = bnK (max (conv (fun k => x0 (ix2 p k)) (fun k => x1 (ix2 p k)) (x2 (ix2 p (0 : Fin 1)))
            (fun k => x3 (ix2 k q)) (fun k => x5 (ix2 k q)) (x4 (ix2 (0 : Fin 1) q))) (Ideal.ofBits .f32 0x00000000#32))
          (x6 (ix2 (0 : Fin 1) q)) (x7 (ix2 (0 : Fin 1) q)) (x8 (ix2 (0 : Fin 1) q)) (x9 (ix2 (0 : Fin 1) q)) := by
  unfold k0_pay1 k0_pay2 k0_pay3 k0_pay4 k0_pay5 k0_pay6
  dsimp only
  simp only [shapeCast_self]
  simp only [addf_apply, mulf_apply, subf_apply, maximumf_apply, truncf_apply,
    broadcastTo_1b_ab_apply, Cert.Layout.broadcastTo_a1_ab_apply,
    Cert.LibPlainMatmul.matmul_zero_apply dot_S5000x128_S128x128_S5000x128_1_0_0_1_n_n rfl rfl rfl rfl rfl rfl]
  rfl

theorem hz : (![0, 0] : Fin 2 → Nat) = fun _ => 0 := funext fun a => by fin_cases a <;> rfl

/-- The printed index maps over the grid: the three row-blocked windows and the output move with the tile number
    along the rows; every other coordinate of every window is block 0. -/
theorem idx_facts : ∀ t : Fin cfg0.N,
    win0_0.index t (0 : Fin 2) = win0_10.index t (0 : Fin 2) ∧ win0_0.index t (1 : Fin 2) = 0
    ∧ win0_1.index t (0 : Fin 2) = win0_10.index t (0 : Fin 2) ∧ win0_1.index t (1 : Fin 2) = 0
    ∧ win0_2.index t (0 : Fin 2) = win0_10.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (1 : Fin 2) = 0 ∧ win0_10.index t (0 : Fin 2) ≤ 9 :=
  (by decide +kernel : ∀ t : Fin grid0.N, _)

/-- Every row tile is some grid point's. -/
theorem idx_onto : ∀ q0 : Fin 10, ∃ t : Fin cfg0.N, win0_10.index t = ![q0.val, 0] :=
  (by decide +kernel : ∀ q0 : Fin 10, ∃ t : Fin grid0.N, win0_10.index t = ![q0.val, 0])

variable (V : (c : Dev nD) → (b : Ref sig .tc) → Buf (Elt Ideal) ((c : Thread nD τ).loc b))

set_option maxHeartbeats 4000000 in
/-- WHAT TILE `t` WRITES BACK is tile `t` of `layer` of the arrays as the region finds them. -/
theorem flushed_eq (c : Dev nD) (t : Fin cfg0.N) :
    (dat0 V c).flushed 10 t = ((cfg0.win 10).blk t).view.read (Elt Ideal)
      (layer (V c main_v22) (V c main_arg0) (V c main_v12) (V c main_v23) (V c main_v25) (V c main_v24) (V c main_v26) (V c main_v27) (V c main_v28) (V c main_v29)) := by
  show (cfg0.win 10).cut (grid0.coords t) ((dat0 V c).after 10 t) = _
  rw [after0_10]
  unfold out0_10
  rw [View.canon_unit_zero hz]
  simp only [View.ld_unit_zero (S := S5000x128) hz, View.ld_unit_zero (S := S5000x1) hz,
    View.ld_unit_zero (S := S128x128) hz, View.ld_unit_zero (S := S1x128) hz]
  obtain ⟨e0, e0', e1, e1', e2, e2', e3, e3', e4, e4', e5, e5', e6, e6', e7, e7', e8, e8', e9, e9', eo', eo⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  show _ = layer _ _ _ _ _ _ _ _ _ _ (((cfg0.win 10).blk t).view.emb (ix2 p q))
  have hq : col (((cfg0.win 10).blk t).view.emb (ix2 p q)) = q := Fin.ext (by
    show win0_10.index t (1 : Fin 2) * 128 + 1 * q.val = q.val; omega)
  have rS : ∀ k : Fin 128, ((cfg0.win 0).blk t).view.emb (ix2 p k) = ix2 (row (((cfg0.win 10).blk t).view.emb (ix2 p q))) k := fun k => by
    funext a; apply Fin.ext
    match a with
    | ⟨0, _⟩ => show win0_0.index t (0 : Fin 2) * 5000 + 1 * p.val = win0_10.index t (0 : Fin 2) * 5000 + 1 * p.val; omega
    | ⟨1, _⟩ => show win0_0.index t (1 : Fin 2) * 128 + 1 * k.val = k.val; omega
  have rH : ∀ k : Fin 128, ((cfg0.win 1).blk t).view.emb (ix2 p k) = ix2 (row (((cfg0.win 10).blk t).view.emb (ix2 p q))) k := fun k => by
    funext a; apply Fin.ext
    match a with
    | ⟨0, _⟩ => show win0_1.index t (0 : Fin 2) * 5000 + 1 * p.val = win0_10.index t (0 : Fin 2) * 5000 + 1 * p.val; omega
    | ⟨1, _⟩ => show win0_1.index t (1 : Fin 2) * 128 + 1 * k.val = k.val; omega
  have rD : ((cfg0.win 2).blk t).view.emb (ix2 p (0 : Fin 1)) = ix2 (row (((cfg0.win 10).blk t).view.emb (ix2 p q))) (0 : Fin 1) := by
    funext a; apply Fin.ext
    match a with
    | ⟨0, _⟩ => show win0_2.index t (0 : Fin 2) * 5000 + 1 * p.val = win0_10.index t (0 : Fin 2) * 5000 + 1 * p.val; omega
    | ⟨1, _⟩ => show win0_2.index t (1 : Fin 2) * 1 + 1 * 0 = 0; omega
  have rWl : ∀ k : Fin 128, ((cfg0.win 3).blk t).view.emb (ix2 k q) = ix2 k q := fun k => by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  have rWr : ∀ k : Fin 128, ((cfg0.win 5).blk t).view.emb (ix2 k q) = ix2 k q := fun k => by
    funext a; apply Fin.ext
    match a with
    | ⟨0, _⟩ => show win0_5.index t (0 : Fin 2) * 128 + 1 * k.val = k.val; omega
    | ⟨1, _⟩ => show win0_5.index t (1 : Fin 2) * 128 + 1 * q.val = q.val; omega
  have r4 : ((cfg0.win 4).blk t).view.emb (ix2 (0 : Fin 1) q) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  have r6 : ((cfg0.win 6).blk t).view.emb (ix2 (0 : Fin 1) q) = ix2 (0 : Fin 1) q := by
    funext a; apply Fin.ext
    match a with
    | ⟨0, _⟩ => show win0_6.index t (0 : Fin 2) * 1 + 1 * 0 = 0; omega
    | ⟨1, _⟩ => show win0_6.index t (1 : Fin 2) * 128 + 1 * q.val = q.val; omega
  have r7 : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 128 + 1 * q.val = q.val; omega
  have r8 : ((cfg0.win 8).blk t).view.emb (ix2 (0 : Fin 1) q) = ix2 (0 : Fin 1) q := by
    funext a; apply Fin.ext
    match a with
    | ⟨0, _⟩ => show win0_8.index t (0 : Fin 2) * 1 + 1 * 0 = 0; omega
    | ⟨1, _⟩ => show win0_8.index t (1 : Fin 2) * 128 + 1 * q.val = q.val; omega
  have r9 : ((cfg0.win 9).blk t).view.emb (ix2 (0 : Fin 1) q) = ix2 (0 : Fin 1) q := by
    funext a; apply Fin.ext
    match a with
    | ⟨0, _⟩ => show win0_9.index t (0 : Fin 2) * 1 + 1 * 0 = 0; omega
    | ⟨1, _⟩ => show win0_9.index t (1 : Fin 2) * 128 + 1 * q.val = q.val; omega
  unfold layer
  rw [hq]
  show bnK (max (conv (fun k => V c main_v22 (((cfg0.win 0).blk t).view.emb (ix2 p k)))
        (fun k => V c main_arg0 (((cfg0.win 1).blk t).view.emb (ix2 p k)))
        (V c main_v12 (((cfg0.win 2).blk t).view.emb (ix2 p (0 : Fin 1))))
        (fun k => V c main_v23 (((cfg0.win 3).blk t).view.emb (ix2 k q)))
        (fun k => V c main_v25 (((cfg0.win 5).blk t).view.emb (ix2 k q)))
        (V c main_v24 (((cfg0.win 4).blk t).view.emb (ix2 (0 : Fin 1) q)))) _)
      (V c main_v26 (((cfg0.win 6).blk t).view.emb (ix2 (0 : Fin 1) q)))
      (V c main_v27 (((cfg0.win 7).blk t).view.emb (ix2 (0 : Fin 1) q)))
      (V c main_v28 (((cfg0.win 8).blk t).view.emb (ix2 (0 : Fin 1) q)))
      (V c main_v29 (((cfg0.win 9).blk t).view.emb (ix2 (0 : Fin 1) q))) = _
  have hS : (fun k : Fin 128 => V c main_v22 (((cfg0.win 0).blk t).view.emb (ix2 p k)))
      = fun k => V c main_v22 (ix2 (row (((cfg0.win 10).blk t).view.emb (ix2 p q))) k) := funext fun k => congrArg _ (rS k)
  have hH : (fun k : Fin 128 => V c main_arg0 (((cfg0.win 1).blk t).view.emb (ix2 p k)))
      = fun k => V c main_arg0 (ix2 (row (((cfg0.win 10).blk t).view.emb (ix2 p q))) k) := funext fun k => congrArg _ (rH k)
  have hWl : (fun k : Fin 128 => V c main_v23 (((cfg0.win 3).blk t).view.emb (ix2 k q))) = fun k => V c main_v23 (ix2 k q) :=
    funext fun k => congrArg _ (rWl k)
  have hWr : (fun k : Fin 128 => V c main_v25 (((cfg0.win 5).blk t).view.emb (ix2 k q))) = fun k => V c main_v25 (ix2 k q) :=
    funext fun k => congrArg _ (rWr k)
  rw [hS, hH, hWl, hWr, rD, r4, r6, r7, r8, r9]

/-- An index of the array is in tile `t`'s block iff each coordinate is in the block's range on its axis. -/
theorem mem_blk (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v30).slice (win0_10.rect t)).set ↔ _
  rw [View.set_slice_whole, Rect.mem_set_unit]
  exact Iff.rfl

/-- The ten tiles cover every row. -/
theorem cover (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ := idx_onto ⟨(i 0).val / 5000, by omega⟩
  have q0 : win0_10.index t (0 : Fin 2) = (i 0).val / 5000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- THE OUTPUT ARRAY after the region: `layer` of the arrays the region found. -/
theorem final (c : Dev nD) : (dat0 V c).arrAt 10 cfg0.N
    = layer (V c main_v22) (V c main_arg0) (V c main_v12) (V c main_v23) (V c main_v25) (V c main_v24) (V c main_v26) (V c main_v27) (V c main_v28) (V c main_v29) :=
  (dat0 V c).arrAt_eq_of_cover 10 _ (fun t _ => flushed_eq V c t) cover

end Cert.KernelIdeal.Layer0

end
-- ==== Proof.RefLayer0.lean ====
/-
  The reference's first layer, one entry at a time.

  The reference computes the layer on whole arrays: the neighbour sums scaled by the inverse degree, two matrix products
  with the transposed weights, the bias, the rectifier, and the batch-norm with its scale as a quotient by the square
  root.  Read at entry `(r, q)` through the generated stage lemmas this is the row formula of RowFormulas.
-/
import proofs.«127282_j43224550868302_2_alg».proof.Proof.Gen.ReferenceIdeal.Read
import proofs.«127282_j43224550868302_2_alg».proof.Proof.RowFormulas
import Idealize.ShloMosaic.Lib.ValueIdx
import Idealize.ShloMosaic.Lib.ValueLayout

set_option maxRecDepth 16384

noncomputable section

namespace Cert.ReferenceIdeal.Layers

open Cert.ReferenceIdeal Cert.ReferenceIdeal.Read Cert.Sage
open Idealize.ShloMosaic Idealize.ShloMosaic.ValueIdx

/-- Entry `(r, q)` of the reference's layer output `v46`: the batch-norm (quotient form) of the rectified pre-activation, read
    from the neighbour sums, the layer's input, the inverse degrees, the two transposed weights and the per-feature vectors. -/
theorem v46_at (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal))
    (r : Fin 50000) (q : Fin 128) :
    val_main_v46 (F := Ideal) x0 x1 x2 x3 x4 x5 x6 x7 x8 (ix2 r q)
      = bnR (max (conv (fun k => val_main_v22 (F := Ideal) x0 x1 (ix2 r k)) (fun k => x0 (ix2 r k)) (val_main_v12 (F := Ideal) x1 (ix2 r (0 : Fin 1)))
            (fun k => val_main_v25 (F := Ideal) x2 (ix2 k q)) (fun k => val_main_v30 (F := Ideal) x4 (ix2 k q)) (x3 (ix1 q))) (Ideal.ofBits .f32 0x00000000#32))
          (x5 (ix1 q)) (x6 (ix1 q)) (x7 (ix1 q)) (x8 (ix1 q)) := by
  have hd1 : val_main_v26 (F := Ideal) x0 x1 x2 (ix2 r q)
      = ∑ k : Fin 128, (val_main_v22 (F := Ideal) x0 x1 (ix2 r k) * val_main_v12 (F := Ideal) x1 (ix2 r (0 : Fin 1))) * val_main_v25 (F := Ideal) x2 (ix2 k q) := by
    rw [val_main_v26_apply]
    refine Finset.sum_congr rfl fun k _ => ?_
    rw [val_main_v24_apply, val_main_v23_apply]
    have e1 : lidx_main_v26 (ix2 r q) k = ix2 r k := funext fun a => Fin.ext (by match a with | ⟨0, _⟩ => rfl | ⟨1, _⟩ => rfl)
    have e2 : ridx_main_v26 (ix2 r q) k = ix2 k q := funext fun a => Fin.ext (by match a with | ⟨0, _⟩ => rfl | ⟨1, _⟩ => rfl)
    have e3 : idx_main_v23 (ix2 r k) = ix2 r (0 : Fin 1) := funext fun a => Fin.ext (by match a with | ⟨0, _⟩ => rfl | ⟨1, _⟩ => rfl)
    rw [e1, e2, e3]
    rfl
  have hd2 : val_main_v31 (F := Ideal) x0 x4 (ix2 r q) = ∑ k : Fin 128, x0 (ix2 r k) * val_main_v30 (F := Ideal) x4 (ix2 k q) := by
    rw [val_main_v31_apply]
    refine Finset.sum_congr rfl fun k _ => ?_
    have e1 : lidx_main_v31 (ix2 r q) k = ix2 r k := funext fun a => Fin.ext (by match a with | ⟨0, _⟩ => rfl | ⟨1, _⟩ => rfl)
    have e2 : ridx_main_v31 (ix2 r q) k = ix2 k q := funext fun a => Fin.ext (by match a with | ⟨0, _⟩ => rfl | ⟨1, _⟩ => rfl)
    rw [e1, e2]
  rw [val_main_v46_apply, val_main_v43_apply, val_main_v36_apply, val_main_v33_apply, val_main_v32_apply, val_main_v29_apply, hd1, hd2]
  rw [val_main_v28_apply, val_main_v27_apply, val_main_v35_apply, val_main_v34_apply, val_main_v45_apply, val_main_v44_apply, val_main_v42_apply, val_main_v41_apply,
    val_main_v40_apply, val_main_v39_apply, val_main_v38_apply, val_main_v37_apply, val_main_cst_5_apply, val_main_call0_v0_apply, val_main_call0_cst_apply]
  have i1 : idx_main_v27 (idx_main_v28 (ix2 r q)) = ix1 q := funext fun a => Fin.ext (by match a with | ⟨0, _⟩ => rfl)
  have i2 : idx_main_v34 (idx_main_v35 (ix2 r q)) = ix1 q := funext fun a => Fin.ext (by match a with | ⟨0, _⟩ => rfl)
  have i3 : idx_main_v41 (idx_main_v42 (ix2 r q)) = ix1 q := funext fun a => Fin.ext (by match a with | ⟨0, _⟩ => rfl)
  have i4 : idx_main_v44 (idx_main_v45 (ix2 r q)) = ix1 q := funext fun a => Fin.ext (by match a with | ⟨0, _⟩ => rfl)
  rw [i1, i2, i3, i4]
  rfl

end Cert.ReferenceIdeal.Layers

end
-- ==== Proof.Bridge0.lean ====
/-
  The first region's result IS the reference's first layer.

  The region's result is the row formula (batch-norm in product form) of the arrays it found; those arrays are the
  reference's own neighbour sums, inverse degrees and transposed weights, and the per-feature vectors recast as rows.
  The reference's first layer is the same row formula with the batch-norm in quotient form.  For a non-negative variance
  the two forms agree (RowFormulas), so the two arrays are equal entry by entry.
-/
import proofs.«127282_j43224550868302_2_alg».proof.Proof.Layer0
import proofs.«127282_j43224550868302_2_alg».proof.Proof.Entries0
import proofs.«127282_j43224550868302_2_alg».proof.Proof.Entries1
import proofs.«127282_j43224550868302_2_alg».proof.Proof.RefLayer0
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.Entries Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

theorem h1_eq (c : Dev nD) (hv0 : ∀ i : (⟨1, ![128]⟩ : Shape).Idx, (0 : EReal) ≤ ((m ((c : Thread nD τ).loc main_arg8)) : (⟨1, ![128]⟩ : Shape).Idx → EReal) i) :
    H1 m ρ c = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show (dat0 (V1 m ρ) c).arrAt 10 cfg0.N = _
  rw [Cert.KernelIdeal.Layer0.final (V1 m ρ) c, e0_S, e0_h, e0_d, e0_wl, e0_wr, e0_bl, e0_g, e0_be, e0_mu, e0_v]
  funext i
  obtain ⟨r, q, rfl⟩ : ∃ (r : Fin 50000) (q : Fin 128), i = ix2 r q := ⟨i 0, i 1, eq_ix2 i⟩
  rw [Cert.ReferenceIdeal.Layers.v46_at]
  unfold Cert.KernelIdeal.Layer0.layer
  rw [shapeCast_a_1a_apply, shapeCast_a_1a_apply, shapeCast_a_1a_apply, shapeCast_a_1a_apply, shapeCast_a_1a_apply]
  rw [bnK_eq_bnR _ _ _ _ _ (hv0 _)]

end Cert.KernelIdeal.Bridge

end
-- ==== Proof.Bridge1.lean ====
/-
  The second region's result IS the reference's second layer.

  As for the first layer: the region found the first region's result (the reference's first layer, Bridge0), its
  neighbour sums gathered and added along the same edges by the same host operations, and the second layer's parameters;
  the two batch-norm forms agree for a non-negative variance.
-/
import proofs.«127282_j43224550868302_2_alg».proof.Proof.Layer1
import proofs.«127282_j43224550868302_2_alg».proof.Proof.Entries1
import proofs.«127282_j43224550868302_2_alg».proof.Proof.Entries2
import proofs.«127282_j43224550868302_2_alg».proof.Proof.RefLayer1
import proofs.«127282_j43224550868302_2_alg».proof.Proof.Bridge0
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.Entries Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

set_option maxHeartbeats 4000000 in
theorem h2_eq (c : Dev nD) (hv0 : ∀ i : (⟨1, ![128]⟩ : Shape).Idx, (0 : EReal) ≤ ((m ((c : Thread nD τ).loc main_arg8)) : (⟨1, ![128]⟩ : Shape).Idx → EReal) i)
    (hv1 : ∀ i : (⟨1, ![128]⟩ : Shape).Idx, (0 : EReal) ≤ ((m ((c : Thread nD τ).loc main_arg15)) : (⟨1, ![128]⟩ : Shape).Idx → EReal) i) :
    H2 m ρ c = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show (dat1 (V3 m ρ) c).arrAt 10 cfg1.N = _
  rw [Cert.KernelIdeal.Layer1.final (V3 m ρ) c, e1_S, e1_h, e1_d, e1_wl, e1_wr, e1_bl, e1_g, e1_be, e1_mu, e1_v, h1_eq m ρ c hv0]
  funext i
  obtain ⟨r, q, rfl⟩ : ∃ (r : Fin 50000) (q : Fin 128), i = ix2 r q := ⟨i 0, i 1, eq_ix2 i⟩
  rw [Cert.ReferenceIdeal.Layers.v80_at]
  unfold Cert.KernelIdeal.Layer1.layer
  rw [shapeCast_a_1a_apply, shapeCast_a_1a_apply, shapeCast_a_1a_apply, shapeCast_a_1a_apply, shapeCast_a_1a_apply]
  rw [bnK_eq_bnR _ _ _ _ _ (hv1 _)]
  rfl

end Cert.KernelIdeal.Bridge

end
-- ==== Proof.Bridge2.lean ====
/-
  The third region's result IS the reference's result.

  The region found the second region's result (the reference's second layer, Bridge1), its neighbour sums, the last
  layer's parameters and the output head's; each of the 64 batch-normed features agrees with the reference's for a
  non-negative variance, and the head (dot product, bias, logistic function) is the same function of them.
-/
import proofs.«127282_j43224550868302_2_alg».proof.Proof.Layer2
import proofs.«127282_j43224550868302_2_alg».proof.Proof.Entries2
import proofs.«127282_j43224550868302_2_alg».proof.Proof.RefLayer2
import proofs.«127282_j43224550868302_2_alg».proof.Proof.Bridge1
import Idealize.ShloMosaic.Lib.ValueIdx
import Idealize.ShloMosaic.Lib.ValueLayout

set_option maxRecDepth 16384

noncomputable section

namespace Cert.KernelIdeal.Bridge

open Cert.KernelIdeal Cert.KernelIdeal.Gen Cert.KernelIdeal.Entries Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

set_option maxHeartbeats 4000000 in
theorem out_eq (c : Dev nD) (hv0 : ∀ i : (⟨1, ![128]⟩ : Shape).Idx, (0 : EReal) ≤ ((m ((c : Thread nD τ).loc main_arg8)) : (⟨1, ![128]⟩ : Shape).Idx → EReal) i)
    (hv1 : ∀ i : (⟨1, ![128]⟩ : Shape).Idx, (0 : EReal) ≤ ((m ((c : Thread nD τ).loc main_arg15)) : (⟨1, ![128]⟩ : Shape).Idx → EReal) i) (hv2 : ∀ i : (⟨1, ![64]⟩ : Shape).Idx, (0 : EReal) ≤ ((m ((c : Thread nD τ).loc main_arg22)) : (⟨1, ![64]⟩ : Shape).Idx → EReal) i) :
    (dat2 (V5 m ρ) c).arrAt 12 cfg2.N = Cert.ReferenceIdeal.Read.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) := by
  rw [Cert.KernelIdeal.Layer2.final (V5 m ρ) c, e2_S, e2_h, e2_d, e2_wl, e2_wr, e2_bl, e2_g, e2_be, e2_mu, e2_v, e2_fw, e2_fb, h2_eq m ρ c hv0 hv1]
  funext i
  obtain ⟨r, u, rfl⟩ : ∃ (r : Fin 50000) (u : Fin 1), i = ix2 r u := ⟨i 0, i 1, eq_ix2 i⟩
  obtain rfl : u = 0 := Subsingleton.elim _ _
  rw [Cert.ReferenceIdeal.Layers.v124_at]
  unfold Cert.KernelIdeal.Layer2.layer
  rw [shapeCast_a_1a_apply]
  refine congrArg (fun y => head y _ _) (funext fun j => ?_)
  rw [Cert.ReferenceIdeal.Layers.v113_at]
  rw [shapeCast_a_1a_apply, shapeCast_a_1a_apply, shapeCast_a_1a_apply, shapeCast_a_1a_apply, shapeCast_a_1a_apply]
  rw [bnK_eq_bnR _ _ _ _ _ (hv2 _)]
  rfl

end Cert.KernelIdeal.Bridge

end
-- ==== Proof.lean ====
/-
  Three SAGE layers (mean aggregation over the edges, two linear maps, bias, rectifier, eval-mode batch-norm) and a logistic
  output head: the tiled kernel program against the whole-array reference, over the extended reals.

  Both programs compute the in-degree reciprocal and, before each layer, gather the source rows along the edges and add
  them into their destination rows with the same host operations.  Each layer the kernel runs as one tiled region over
  row tiles of 5000 nodes; entry `(r, q)` of a layer depends only on row `r` of the neighbour sums, of the layer's input
  and of the inverse degrees, so a region's result is one function of the whole arrays it found (Layer0, Layer1,
  Layer2), and the arrays it found are the reference's own stages (Entries0–2).  The one arithmetic difference is the
  batch-norm scale: the kernel multiplies by the reciprocal square root of `v + ε`, the reference divides by the square
  root.  On the extended reals these agree for `v ≥ 0` (whatever the other operands) and differ for `v < −ε`; the
  precondition therefore asks, besides finiteness, that the three running-variance vectors be non-negative, and this is
  the only part of the precondition the proof uses (PreDecode).  Layer by layer the kernel's arrays are then the
  reference's (Bridge0–2), and the logistic function is spelled the same on both sides.

  The three frames are the generated ones; the idealization ledger is empty, so `preserves` is trivial.
-/
import proofs.«127282_j43224550868302_2_alg».proof.Defs
import proofs.«127282_j43224550868302_2_alg».proof.Proof.Gen.Kernel
import proofs.«127282_j43224550868302_2_alg».proof.Proof.Gen.Kernel.Frame
import proofs.«127282_j43224550868302_2_alg».proof.Proof.Gen.KernelIdeal
import proofs.«127282_j43224550868302_2_alg».proof.Proof.Gen.KernelIdeal.Frame
import proofs.«127282_j43224550868302_2_alg».proof.Proof.Gen.ReferenceIdeal
import proofs.«127282_j43224550868302_2_alg».proof.Proof.Gen.Pre_finite_inputs
import proofs.«127282_j43224550868302_2_alg».proof.Proof.Gen.ReferenceIdeal.Run
import proofs.«127282_j43224550868302_2_alg».proof.Proof.Gen.ReferenceIdeal.Read
import proofs.«127282_j43224550868302_2_alg».proof.Proof.KernelRun
import proofs.«127282_j43224550868302_2_alg».proof.Proof.PreDecode
import proofs.«127282_j43224550868302_2_alg».proof.Proof.Bridge2
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

set_option maxHeartbeats 4000000 in
/-- Both programs end with the reference's last stage of the (agreeing) arguments as their result. -/
theorem algebraic : Cert.algebraic_KernelIdeal_ReferenceIdeal := by
  intro m ρ m' ρ' hpre hagree
  refine ⟨fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · refine (θ_run Cert.KernelIdeal.defs _ _).mono (fun r h c => ⟨(h c).1.trans ?_, (h c).2⟩) (Cert.KernelIdeal.Gen.run_value m ρ)
    obtain ⟨hv0, hv1, hv2⟩ := Cert.Pre_finite_inputs.Decode.variances_nonneg _ _ _ _ _ _ _ _ _ _ _ _ _ _ _ _ _ _ _ _ _ _ _ _ _ (hpre c)
    exact (Cert.KernelIdeal.Gen.W6_arr m ρ c 12).trans (Cert.KernelIdeal.Bridge.out_eq m ρ c hv0 hv1 hv2)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v124_eq]
    obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
